-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn_part1 {F : FTy → Type} [FloatOps F] (main_v13 : IVec S_ 1) (main_v16 : IVec S8x2048x128 1) : IVec S_ 1 :=
  let main_c_5 : IVec S_ 1 := constantI S_ 1 1#1
  let main_v17 : IVec S_ 1 := (fun x v => Host.reduce IntOp.andi x v reducesTo_S8x2048x128_S_d0_1_2 h_S_) main_v16 main_c_5
  let main_v18 : IVec S_ 1 := andi main_v13 main_v17
  main_v18

def fn {F : FTy → Type} [FloatOps F] (main_arg0 : FVec F S8x2048x128 .f32) (main_arg1 : FVec F S8x2048x128 .f32) (main_arg2 : FVec F S8x2048x128 .f32) (main_arg3 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2048x128 .f32 := Host.absf main_arg3
  let main_cst_4 : FVec F S_ .f32 := constant S_ .f32 0x7F800000#32
  let main_v15 : FVec F S8x2048x128 .f32 := broadcastInDim S8x2048x128 ![] bcast_S_S8x2048x128 main_cst_4
  let main_v16 : IVec S8x2048x128 1 := cmpf .olt main_v14 main_v15
  fn_part1 (F := F) main_v13 main_v16
-- ==== Kernel.lean ====
abbrev S8x2048x128 : Shape := ⟨3, ![8, 2048, 128]⟩
abbrev S8x2048x1 : Shape := ⟨3, ![8, 2048, 1]⟩
abbrev S1x512x128 : Shape := ⟨3, ![1, 512, 128]⟩
abbrev S1x2048x128 : Shape := ⟨3, ![1, 2048, 128]⟩
abbrev S1x2048x1 : Shape := ⟨3, ![1, 2048, 1]⟩
abbrev S2048x1 : Shape := ⟨2, ![2048, 1]⟩
abbrev S512x128 : Shape := ⟨2, ![512, 128]⟩
abbrev S2048x128 : Shape := ⟨2, ![2048, 128]⟩
abbrev S512 : Shape := ⟨1, ![512]⟩
abbrev S2048 : Shape := ⟨1, ![2048]⟩
abbrev S128x512 : Shape := ⟨2, ![128, 512]⟩
abbrev S2048x512 : Shape := ⟨2, ![2048, 512]⟩
abbrev S1x512 : Shape := ⟨2, ![1, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .hbm, ⟨4, _⟩ => ⟨S8x2048x1, .f32⟩
  | .hbm, ⟨5, _⟩ => ⟨S8x2048x1, .f32⟩
  | .hbm, ⟨6, _⟩ => ⟨S8x2048x1, .f32⟩
  | .hbm, ⟨7, _⟩ => ⟨S8x2048x1, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x1, .f32⟩
  | .local _ .vmem, ⟨7, _⟩ => ⟨S1x2048x1, .f32⟩
  | .local _ .vmem, ⟨8, _⟩ => ⟨S1x512x128, .f32⟩
  | .local _ .vmem, ⟨9, _⟩ => ⟨S1x512x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x1, .f32⟩
  | .local _ .vmem, ⟨13, _⟩ => ⟨S1x2048x1, .f32⟩
  | .local _ .vmem, ⟨14, _⟩ => ⟨S1x2048x1, .f32⟩
  | .local _ .vmem, ⟨15, _⟩ => ⟨S1x2048x1, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S512x128_S512 : S512x128.Reduces [1] S512
  reduces_S2048x128_S2048 : S2048x128.Reduces [1] S2048
  bitsLt_bf16_f32 : FTy.bits .bf16 < FTy.bits .f32
  transposes_S512x128_p1_0_S128x512 : S512x128.Transposes [1, 0] S128x512
  shapeCasts_S512_S1x512 : S512.ShapeCasts S1x512
  broadcasts_S1x512_S2048x512 : S1x512.Broadcasts S2048x512
  shapeCasts_S2048_S2048x1 : S2048.ShapeCasts S2048x1
  broadcasts_S2048x1_S2048x512 : S2048x1.Broadcasts S2048x512
  reduces_S2048x512_S2048 : S2048x512.Reduces [1] S2048
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x2048x128.size a
  hwx0_0 : ∀ i : grid0.Coords, EltTy.bits .f32 = 32 ∨ (Rect.block (s := S8x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S8x2048x1.size a
  hwx0_2 : ∀ i : grid0.Coords, EltTy.bits .f32 = 32 ∨ (Rect.block (s := S8x2048x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S8x2048x1.size a
  hwx0_3 : ∀ i : grid0.Coords, EltTy.bits .f32 = 32 ∨ (Rect.block (s := S8x2048x1) S1x2048x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S8x2048x128.size a
  hwx1_0 : ∀ i : grid1.Coords, EltTy.bits .f32 = 32 ∨ (Rect.block (s := S8x2048x128) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .f32 = 32 ∨ (Rect.block (s := S8x2048x128) S1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1.size a ≤ S8x2048x1.size a
  hwx1_2 : ∀ i : grid1.Coords, EltTy.bits .f32 = 32 ∨ (Rect.block (s := S8x2048x1) S1x2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1.size a ≤ S8x2048x1.size a
  hwx1_3 : ∀ i : grid1.Coords, EltTy.bits .f32 = 32 ∨ (Rect.block (s := S8x2048x1) S1x2048x1.size (cc1_transform_3 i) (hinb1_3 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x2048x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .hbm, ⟨4, _⟩ => ⟨S8x2048x2048, .f32⟩
  | .hbm, ⟨5, _⟩ => ⟨S8x2048x128, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048x128, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x128, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048, .f32⟩
  | .hbm, ⟨33, _⟩ => ⟨S8x2048x128, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d2 : S8x2048x2048.ReducesTo [2] S8x2048
  bcast_S_S8x2048x1 : S_.BroadcastsInDim S8x2048x1 (![] : Fin 0 → Fin S8x2048x1.rank)
  dot_S8x2048x128_S8x2048x128_S8x2048x2048_2_2_1_1_0_0_wf : DotDims.WF S8x2048x128 S8x2048x128 S8x2048x2048 [2] [2] [1] [1] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf

class Facts : Prop extends Facts₀ where

variable [Facts]
-- ==== Proof.Spec.lean ====
/-
  The mathematics both programs compute, at the ideal values, for ONE direction (a text array and a
  hypothesis array, each 8 batches of 2048 rows of 128 numbers).

  For a batch b, a hypothesis row h and a text row t the COSINE is
      cos b h t = ((∑ d, hypo[b,h,d] · text[b,t,d]) / ‖text[b,t]‖) / ‖hypo[b,h]‖,
  where the norm of a row is floored: ‖x‖ = sqrt (max (∑ d, x[d]²) ε), ε the f32 word nearest 1e-6 (the same word in
  both programs, so it is never evaluated).  The two pooled results, of shape [8, 2048, 1], are the MAXIMUM of the
  cosine over the 2048 text rows, folded from the f32 word of -∞, and its MEAN: the sum over the text rows divided by
  the f32 word of 2048.  Division, square root, maximum are the ideal instance's (extended reals; division and root
  total), and the sums are sums of extended reals.

  The kernel walks the text rows in four tiles of 512; `tileCos` is the same cosine written over one text tile and the
  batch's hypothesis block as the kernel's body holds them (a leading axis of extent one).  The two closing lemmas say
  that folding a maximum, or summing, tile by tile and then across the four tiles is folding or summing over all 2048
  rows at once: associativity and commutativity of max and + on the extended reals, which need no finiteness.
-/
import Idealize.ShloMosaic.PureOps.Ideal
import Idealize.ShloMosaic.PureOps.Ideal.Laws
import Idealize.ShloMosaic.Lib.ValueIdx

noncomputable section

namespace Cert.CosPool

open Idealize.ShloMosaic Idealize.ShloMosaic.ValueIdx

/-- An input array, a text tile, a hypothesis block, a pooled result: their shapes. -/
abbrev Arr : Shape := ⟨3, ![8, 2048, 128]⟩
abbrev TextTile : Shape := ⟨3, ![1, 512, 128]⟩
abbrev HypoBlock : Shape := ⟨3, ![1, 2048, 128]⟩
abbrev Pooled : Shape := ⟨3, ![8, 2048, 1]⟩
abbrev PooledBlock : Shape := ⟨3, ![1, 2048, 1]⟩

/-- The floor under a squared norm: the f32 word nearest 1e-6, as both programs spell it. -/
def eps : EReal := Ideal.ofBits .f32 0x358637BD#32
/-- The value both maxima are folded from: the f32 word of -∞. -/
def negInf : EReal := Ideal.ofBits .f32 0xFF800000#32
/-- The divisor of the mean: the f32 word of 2048. -/
def count : EReal := Ideal.ofBits .f32 0x45000000#32

/-- The floored norm, from the sum of squares. -/
def normOf (ss : EReal) : EReal := Ideal.sqrt (max ss eps)

/-- The cosine of hypothesis row `h` and text row `t` of batch `b`. -/
def cosAt (text hypo : Arr.Idx → EReal) (b : Fin 8) (h t : Fin 2048) : EReal :=
  Ideal.div
    (Ideal.div (∑ d : Fin 128, hypo (ix3 b h d) * text (ix3 b t d))
      (normOf (∑ d : Fin 128, text (ix3 b t d) * text (ix3 b t d))))
    (normOf (∑ d : Fin 128, hypo (ix3 b h d) * hypo (ix3 b h d)))

/-- The pooled maximum: over the text rows, from -∞. -/
def poolMax (text hypo : Arr.Idx → EReal) : Pooled.Idx → EReal := fun i =>
  (Finset.univ : Finset (Fin 2048)).fold max negInf
    (fun t => cosAt text hypo ⟨(i 0).val, (i 0).isLt⟩ ⟨(i 1).val, (i 1).isLt⟩ t)

/-- The pooled mean: the sum over the text rows, divided by 2048. -/
def poolMean (text hypo : Arr.Idx → EReal) : Pooled.Idx → EReal := fun i =>
  Ideal.div (∑ t : Fin 2048, cosAt text hypo ⟨(i 0).val, (i 0).isLt⟩ ⟨(i 1).val, (i 1).isLt⟩ t) count

/-- The cosine of hypothesis row `h` and row `u` of ONE text tile, over the blocks the kernel's body holds. -/
def tileCos (xt : TextTile.Idx → EReal) (xh : HypoBlock.Idx → EReal) (h : Fin 2048) (u : Fin 512) : EReal :=
  Ideal.div
    (Ideal.div (∑ d : Fin 128, xh (ix3 0 h d) * xt (ix3 0 u d))
      (normOf (∑ d : Fin 128, xt (ix3 0 u d) * xt (ix3 0 u d))))
    (normOf (∑ d : Fin 128, xh (ix3 0 h d) * xh (ix3 0 h d)))

/-- Text row `512·k + u`: row `u` of tile `k`. -/
def tileRow (k : Fin 4) (u : Fin 512) : Fin 2048 := ⟨512 * k.val + u.val, by have := k.isLt; have := u.isLt; omega⟩

theorem tileRow_surj (t : Fin 2048) : ∃ (k : Fin 4) (u : Fin 512), tileRow k u = t :=
  ⟨⟨t.val / 512, by have := t.isLt; omega⟩, ⟨t.val % 512, Nat.mod_lt _ (by decide)⟩,
    Fin.ext (by show 512 * (t.val / 512) + t.val % 512 = t.val; omega)⟩

/-- A maximum folded from `z` tile by tile, then across the four tiles in order, is the maximum folded from `z` over
    all 2048 rows: both are the least upper bound of `z` and the values. -/
theorem fold_max_tiles (z : EReal) (f : Fin 2048 → EReal) :
    max (max (max (max z
        ((Finset.univ : Finset (Fin 512)).fold max z fun u => f (tileRow 0 u)))
        ((Finset.univ : Finset (Fin 512)).fold max z fun u => f (tileRow 1 u)))
        ((Finset.univ : Finset (Fin 512)).fold max z fun u => f (tileRow 2 u)))
        ((Finset.univ : Finset (Fin 512)).fold max z fun u => f (tileRow 3 u))
      = (Finset.univ : Finset (Fin 2048)).fold max z f := by
  refine eq_of_forall_ge_iff fun c => ?_
  simp only [max_le_iff, Finset.fold_max_le, Finset.mem_univ, true_implies]
  constructor
  · rintro ⟨⟨⟨⟨hz, -, h0⟩, -, h1⟩, -, h2⟩, -, h3⟩
    refine ⟨hz, fun t => ?_⟩
    obtain ⟨k, u, rfl⟩ := tileRow_surj t
    match k with
    | ⟨0, _⟩ => exact h0 u
    | ⟨1, _⟩ => exact h1 u
    | ⟨2, _⟩ => exact h2 u
    | ⟨3, _⟩ => exact h3 u
  · rintro ⟨hz, hf⟩
    exact ⟨⟨⟨⟨hz, hz, fun u => hf _⟩, hz, fun u => hf _⟩, hz, fun u => hf _⟩, hz, fun u => hf _⟩

/-- A sum taken tile by tile and then across the four tiles in order, from zero, is the sum over all 2048 rows. -/
theorem sum_tiles (f : Fin 2048 → EReal) :
    (((0 + ∑ u : Fin 512, f (tileRow 0 u)) + ∑ u : Fin 512, f (tileRow 1 u)) + ∑ u : Fin 512, f (tileRow 2 u))
        + ∑ u : Fin 512, f (tileRow 3 u)
      = ∑ t : Fin 2048, f t := by
  have e : ∑ t : Fin 2048, f t = ∑ x : Fin 4 × Fin 512, f (tileRow x.1 x.2) := by
    refine (Fintype.sum_equiv (finProdFinEquiv (m := 4) (n := 512)) (fun x => f (tileRow x.1 x.2)) f fun x => ?_).symm
    refine congrArg f (Fin.ext ?_)
    show 512 * x.1.val + x.2.val = x.2.val + 512 * x.1.val
    omega
  rw [e, Fintype.sum_prod_type, Fin.sum_univ_four, zero_add]

end Cert.CosPool

end
-- ==== Proof.KernelRun.lean ====
/-
  The idealized kernel's run with its four results NAMED.  The program is two pallas_calls in sequence; the generated
  frame certificate carries, through both, the contents of every unscoped buffer at each boundary: at the first call's
  exit its two result arrays hold what that call's write-backs leave (`arrAt … N`), every other buffer what it held;
  at the second call's exit likewise.  The first call's results are not touched by the second call, so at the end they
  still hold the first call's write-backs, and the second call's results hold the second's.  This module restates the
  frame theorem's proof term with those four equations added to the final state's reading; the arguments end as
  launched, as the frame says.
-/
import proofs.«130323_j14267881357504_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first call's maximum array, at the end: untouched by the second call, it holds the first call's write-backs. -/
theorem W2_v0_0 (c : Dev nD) : W2 m ρ c (Proc.devRef .tc main_v0_0) = (dat0 (V0 m ρ) c).arrAt 2 cfg0.N :=
  (W2_of_ne m ρ c main_v0_0 (by decide)).trans (W1_arr m ρ c 2)
/-- The first call's mean array, likewise. -/
theorem W2_v0_1 (c : Dev nD) : W2 m ρ c (Proc.devRef .tc main_v0_1) = (dat0 (V0 m ρ) c).arrAt 3 cfg0.N :=
  (W2_of_ne m ρ c main_v0_1 (by decide)).trans (W1_arr m ρ c 3)
/-- The second call's maximum array holds the second call's write-backs. -/
theorem W2_v1_0 (c : Dev nD) : W2 m ρ c (Proc.devRef .tc main_v1_0) = (dat1 (V1 m ρ) c).arrAt 2 cfg1.N :=
  W2_arr m ρ c 2
/-- The second call's mean array, likewise. -/
theorem W2_v1_1 (c : Dev nD) : W2 m ρ c (Proc.devRef .tc main_v1_1) = (dat1 (V1 m ρ) c).arrAt 3 cfg1.N :=
  W2_arr m ρ c 3

/-- The second call finds its text and hypothesis arrays as launched: the first call wrote neither. -/
theorem V1_main_arg1 (c : Dev nD) : V1 m ρ c main_arg1 = m ((c : Thread nD τ).loc main_arg1) :=
  W1_of_ne m ρ c main_arg1 (by decide)
theorem V1_main_arg3 (c : Dev nD) : V1 m ρ c main_arg3 = m ((c : Thread nD τ).loc main_arg3) :=
  W1_of_ne m ρ c main_arg3 (by decide)

set_option backward.isDefEq.respectTransparency.types false in
/-- Every weakly fair execution of the program terminates, nothing faulting, with the four result arrays at what the two
    calls' write-backs leave and the four arguments as launched. -/
theorem run : θ_run defs (onTc (τ := τ) (main (F := F))) ⟨m, fun _ => 0, ρ⟩ (fun r => ∀ c : Dev nD,
      r.2.mem ((c.tc : Thread nD τ).loc main_v0_0) = (dat0 (V0 m ρ) c).arrAt 2 cfg0.N
      ∧ r.2.mem ((c.tc : Thread nD τ).loc main_v0_1) = (dat0 (V0 m ρ) c).arrAt 3 cfg0.N
      ∧ r.2.mem ((c.tc : Thread nD τ).loc main_v1_0) = (dat1 (V1 m ρ) c).arrAt 2 cfg1.N
      ∧ r.2.mem ((c.tc : Thread nD τ).loc main_v1_1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v0_0 (by decide))).trans (W2_v0_0 m ρ c),
       (h c _ (mem_uc main_v0_1 (by decide))).trans (W2_v0_1 m ρ c),
       (h c _ (mem_uc main_v1_0 (by decide))).trans (W2_v1_0 m ρ c),
       (h c _ (mem_uc main_v1_1 (by decide))).trans (W2_v1_1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Named

end
-- ==== Proof.Pieces0.lean ====
/-
  What each control case of the body of pooling kernel 0 leaves in its two outputs' blocks, as the body's own
  functions of the blocks it loaded — at any float instance.

  The body holds one text tile `x0` (512 rows of 128 numbers), the batch's hypothesis block `x1` (2048 rows of 128), and
  two running blocks of one number per hypothesis row: output 2, the running MAXIMUM of the cosines over the text rows
  seen so far, and output 3, their running SUM. Its straight part takes the maximum of output 2 with the tile's row
  maxima and adds the tile's row sums to output 3. Two conditionals surround it. On the first tile of a batch (case A)
  both outputs are first reset, output 2 to the block of -∞ and output 3 to the block of zeros, so the straight part
  reads those back instead of earlier contents. On a middle tile (case B) nothing else happens. On the last tile
  (case C) the completed sum in output 3 is read back and replaced by its quotient by the number of text rows: the mean.

  Every load and store of the body goes through the whole block at zero offsets. So whatever is stored last into an
  output is what the output holds, and a load that follows a store reads exactly that store's value. The six
  statements below are these two facts applied to the stores each case makes, in the order it makes them.
-/
import proofs.«130323_j14267881357504_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The block offsets of every load and store of the body: all zero, however the zeros are spelt. -/
theorem hz0 : (![0, 0, 0] : Fin 3 → Nat) = fun _ => 0 := funext fun a => by fin_cases a <;> rfl

/-! ## Case A: the first text tile of a batch (the reset taken, the finish not)

The body first stores the block of -∞ into output 2 and the block of zeros into output 3; it then loads the text tile,
the hypothesis block and output 2 back, and stores into output 2 the maximum of what it read back with the tile's row
maxima; it loads output 3 back and stores into it the sum of what it read back with the tile's row sums. Each output is
therefore covered twice, the last store over the whole block, and each read-back reads the one earlier whole-block
store. -/

/-- Output 2 after case A: the running maximum started from the block of -∞. -/
theorem out0_A_2_eq (c : Dev nD) (i : grid0.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : cond0_0 i) (hc1 : ¬cond0_1 i)
    (x0 : Vec F S1x512x128 .f32) (x1 : Vec F S1x2048x128 .f32) :
    out0_A_2 c i a2 h2 a3 h3 a4 h4 a5 h5 hc0 hc1 x0 x1 = k0_pay1 (k0_pay8 x0 x1 (k0_pay4 (F := F))) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x2048x1) hz0, View.readCov_unit_zero (S := S1x2048x1) _ hz0]
  simp only [View.readAt_eq_ld, h2.read_unread, h3.read_unread, h4.read_unread, h5.read_unread,
    View.ld_unit_zero (S := S1x512x128) hz0, View.ld_unit_zero (S := S1x2048x128) hz0, View.ld_unit_zero (S := S1x2048x1) hz0]

/-- Output 3 after case A: the running sum started from the block of zeros. -/
theorem out0_A_3_eq (c : Dev nD) (i : grid0.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : cond0_0 i) (hc1 : ¬cond0_1 i)
    (x0 : Vec F S1x512x128 .f32) (x1 : Vec F S1x2048x128 .f32) :
    out0_A_3 c i a2 h2 a3 h3 a4 h4 a5 h5 hc0 hc1 x0 x1 = k0_pay2 (k0_pay7 x0 x1) (k0_pay5 (F := F)) := by
  unfold out0_A_3
  rw [View.read_writes_eq_canon _ _ _ (cover0_A_3 c i a2 h2 a3 h3 a4 h4 a5 h5 hc0 hc1 x0 x1)]
  unfold kernelRun0_A
  dsimp only
  sl_unfold_words
  rw [View.canon_cons_unit_zero (S := S1x2048x1) hz0, View.readCov_unit_zero (S := S1x2048x1) _ hz0]
  simp only [View.readAt_eq_ld, h2.read_unread, h3.read_unread, h4.read_unread, h5.read_unread,
    View.ld_unit_zero (S := S1x512x128) hz0, View.ld_unit_zero (S := S1x2048x128) hz0, View.ld_unit_zero (S := S1x2048x1) hz0]

/-! ## Case B: a middle text tile (neither the reset nor the finish taken)

No reset: the body loads the text tile, the hypothesis block and the running contents of output 2, and stores into
output 2 their maximum with the tile's row maxima; it loads the running contents of output 3 and stores into it their
sum with the tile's row sums. Each output is covered by that one whole-block store. -/

/-- Output 2 after case B: the maximum of its running contents with the tile's row maxima. -/
theorem out0_B_2_eq (c : Dev nD) (i : grid0.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond0_0 i) (hc1 : ¬cond0_1 i)
    (x0 : Vec F S1x512x128 .f32) (x1 : Vec F S1x2048x128 .f32) (xo2 xo3 : Vec F S1x2048x1 .f32) :
    out0_B_2 c i a2 h2 a3 h3 a4 h4 a5 h5 hc0 hc1 x0 x1 xo2 xo3 = k0_pay1 (k0_pay8 x0 x1 xo2) := by
  unfold out0_B_2
  rw [View.read_writes_eq_canon _ _ _ (cover0_B_2 c i a2 h2 a3 h3 a4 h4 a5 h5 hc0 hc1 x0 x1 xo2 xo3)]
  unfold kernelRun0_B
  dsimp only
  sl_unfold_words
  rw [View.canon_unit_zero hz0]
  simp only [View.readAt_eq_ld, h2.read_unread, h3.read_unread, h4.read_unread, h5.read_unread,
    View.ld_unit_zero (S := S1x512x128) hz0, View.ld_unit_zero (S := S1x2048x128) hz0, View.ld_unit_zero (S := S1x2048x1) hz0]

/-- Output 3 after case B: the sum of its running contents with the tile's row sums. -/
theorem out0_B_3_eq (c : Dev nD) (i : grid0.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond0_0 i) (hc1 : ¬cond0_1 i)
    (x0 : Vec F S1x512x128 .f32) (x1 : Vec F S1x2048x128 .f32) (xo2 xo3 : Vec F S1x2048x1 .f32) :
    out0_B_3 c i a2 h2 a3 h3 a4 h4 a5 h5 hc0 hc1 x0 x1 xo2 xo3 = k0_pay2 (k0_pay7 x0 x1) xo3 := by
  unfold out0_B_3
  rw [View.read_writes_eq_canon _ _ _ (cover0_B_3 c i a2 h2 a3 h3 a4 h4 a5 h5 hc0 hc1 x0 x1 xo2 xo3)]
  unfold kernelRun0_B
  dsimp only
  sl_unfold_words
  rw [View.canon_unit_zero hz0]
  simp only [View.readAt_eq_ld, h2.read_unread, h3.read_unread, h4.read_unread, h5.read_unread,
    View.ld_unit_zero (S := S1x512x128) hz0, View.ld_unit_zero (S := S1x2048x128) hz0, View.ld_unit_zero (S := S1x2048x1) hz0]

/-! ## Case C: the last text tile of a batch (the reset not taken, the finish taken)

As case B, and then the finish: the body loads back what it has just stored into output 3 (the completed sum) and
stores its quotient by the count of text rows over it. Output 2 is covered by its one store; output 3 twice, the
quotient last, whose argument reads the one earlier whole-block store. -/

/-- Output 2 after case C: as in case B, the finish does not touch it. -/
theorem out0_C_2_eq (c : Dev nD) (i : grid0.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond0_0 i) (hc1 : cond0_1 i)
    (x0 : Vec F S1x512x128 .f32) (x1 : Vec F S1x2048x128 .f32) (xo2 xo3 : Vec F S1x2048x1 .f32) :
    out0_C_2 c i a2 h2 a3 h3 a4 h4 a5 h5 hc0 hc1 x0 x1 xo2 xo3 = k0_pay1 (k0_pay8 x0 x1 xo2) := by
  unfold out0_C_2
  rw [View.read_writes_eq_canon _ _ _ (cover0_C_2 c i a2 h2 a3 h3 a4 h4 a5 h5 hc0 hc1 x0 x1 xo2 xo3)]
  unfold kernelRun0_C
  dsimp only
  sl_unfold_words
  rw [View.canon_unit_zero hz0]
  simp only [View.readAt_eq_ld, h2.read_unread, h3.read_unread, h4.read_unread, h5.read_unread,
    View.ld_unit_zero (S := S1x512x128) hz0, View.ld_unit_zero (S := S1x2048x128) hz0, View.ld_unit_zero (S := S1x2048x1) hz0]

/-- Output 3 after case C: the completed sum divided by the count of text rows. -/
theorem out0_C_3_eq (c : Dev nD) (i : grid0.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond0_0 i) (hc1 : cond0_1 i)
    (x0 : Vec F S1x512x128 .f32) (x1 : Vec F S1x2048x128 .f32) (xo2 xo3 : Vec F S1x2048x1 .f32) :
    out0_C_3 c i a2 h2 a3 h3 a4 h4 a5 h5 hc0 hc1 x0 x1 xo2 xo3 = k0_pay3 (k0_pay2 (k0_pay7 x0 x1) xo3) := by
  unfold out0_C_3
  rw [View.read_writes_eq_canon _ _ _ (cover0_C_3 c i a2 h2 a3 h3 a4 h4 a5 h5 hc0 hc1 x0 x1 xo2 xo3)]
  unfold kernelRun0_C
  dsimp only
  sl_unfold_words
  rw [View.canon_cons_unit_zero (S := S1x2048x1) hz0, View.readCov_unit_zero (S := S1x2048x1) _ hz0]
  simp only [View.readAt_eq_ld, h2.read_unread, h3.read_unread, h4.read_unread, h5.read_unread,
    View.ld_unit_zero (S := S1x512x128) hz0, View.ld_unit_zero (S := S1x2048x128) hz0, View.ld_unit_zero (S := S1x2048x1) hz0]

end Cert.KernelIdeal.Pieces

end
-- ==== Proof.TileValues.lean ====
/-
  The values the kernel's body computes on one text tile, read entry by entry.

  The body holds a text tile (512 rows of 128 numbers) and the batch's hypothesis block (2048 rows of 128 numbers), each
  under a leading axis of extent one.  It forms the 2048 × 512 array whose entry (h, u) is the inner product of
  hypothesis row h and text row u, divided by the floored norm of the text row and then by the floored norm of the
  hypothesis row: the specification's `tileCos`.  From that array it takes, along each hypothesis row, the maximum
  (folded from -∞) and the sum, and combines them with the running maximum and running sum it read; the last step
  divides the running sum by 2048.

  Every operation involved is either entrywise (product, quotient, maximum, square root, narrowing: the identity on
  ideal values, a repeated scalar) or moves entries without changing them (a unit axis dropped or added, a vector laid
  as a row or a column, a row or a column repeated, a transpose), or is a sum or a maximum along a row, or the matrix
  product.  The first lemmas read each of the last three kinds at an index over arbitrary arrays; `cos_tile0` puts them
  together for the cosine tile, and the statements after it read the stored blocks at a row `h`.
-/
import proofs.«130323_j14267881357504_1_alg».proof.Proof.Gen.KernelIdeal.Skeleton
import proofs.«130323_j14267881357504_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.CosPool.Tile

open Cert.KernelIdeal Cert.KernelIdeal.Gen Cert.CosPool Idealize.ShloMosaic Idealize.ShloMosaic.ValueIdx

/-! ## Layout operations read at an index -/

/-- An `[a]` array cast to a column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index `r` of a row, with the coordinate `k` of the reduced second axis put back, is `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-! ## The two reductions along a row -/

/-- A sum along the second axis of an `[m, n]` array, from the zero word, read at row `r`: the sum of that row. -/
theorem rowSum_apply {m n : ℕ} (src : FVec Ideal ⟨2, ![m, n]⟩ .f32)
    (hr : (⟨2, ![m, n]⟩ : Shape).Reduces [1] (⟨1, ![m]⟩ : Shape)) (hφ : FKind.Formats FTy.f32)
    (hacc : (0x00000000#32 : BitVec FTy.f32.bits) = FKind.add.neutral FTy.f32 hφ) (r : Fin m) :
    multiReduction (F := Ideal) .add [1] ⟨1, ![m]⟩ src 0x00000000#32 hr hφ hacc (ix1 r) = ∑ k : Fin n, src (ix2 r k) :=
  (Ideal.multiReduction_add_single src _ hr hφ hacc (ix1 r)).trans
    (Finset.sum_congr rfl fun k _ => congrArg src (lift_row hr r k))

/-- A maximum along the second axis of an `[m, n]` array, folded from the word of -∞, read at row `r`: the maximum of
    that row, folded from -∞. -/
theorem rowMax_apply {m n : ℕ} (src : FVec Ideal ⟨2, ![m, n]⟩ .f32)
    (hr : (⟨2, ![m, n]⟩ : Shape).Reduces [1] (⟨1, ![m]⟩ : Shape)) (hφ : FKind.Formats FTy.f32)
    (hacc : (0xFF800000#32 : BitVec FTy.f32.bits) = FKind.maximumf.neutral FTy.f32 hφ) (r : Fin m) :
    multiReduction (F := Ideal) .maximumf [1] ⟨1, ![m]⟩ src 0xFF800000#32 hr hφ hacc (ix1 r)
      = (Finset.univ : Finset (Fin n)).fold max negInf fun k => src (ix2 r k) :=
  (Ideal.multiReduction_maximumf_single src _ hr hφ hacc (ix1 r)).trans
    (congrArg (fun f => Finset.fold max negInf f (Finset.univ : Finset (Fin n)))
      (funext fun k => congrArg src (lift_row hr r k)))

/-! ## The matrix product read at an index -/

/-- The left operand's index of the product at output `(h, u)`: its row is `h`, -/
theorem lhsIdx_row (j : S2048x512.Idx) (q : dot_S2048x128_S128x512_S2048x512_1_0_0_1_n_n.contr.Idx) :
    (dot_S2048x128_S128x512_S2048x512_1_0_0_1_n_n.lhsIdx j q 0).val = (j 0).val := by
  unfold DotDims.lhsIdx
  rw [dif_neg (show ¬(0 : Fin S2048x128.rank) ∈ dot_S2048x128_S128x512_S2048x512_1_0_0_1_n_n.lhsBatch by decide),
    dif_pos (show (0 : Fin S2048x128.rank) ∈ dot_S2048x128_S128x512_S2048x512_1_0_0_1_n_n.lhsNonContracting by decide)]
  rfl

/-- and its column the contraction coordinate. -/
theorem lhsIdx_col (j : S2048x512.Idx) (q : dot_S2048x128_S128x512_S2048x512_1_0_0_1_n_n.contr.Idx) :
    (dot_S2048x128_S128x512_S2048x512_1_0_0_1_n_n.lhsIdx j q 1).val = (q ⟨0, by decide⟩).val :=
  dot_S2048x128_S128x512_S2048x512_1_0_0_1_n_n.lhsIdx_val_of_single rfl j q

/-- The right operand's index: its row is the contraction coordinate, -/
theorem rhsIdx_row (j : S2048x512.Idx) (q : dot_S2048x128_S128x512_S2048x512_1_0_0_1_n_n.contr.Idx) :
    (dot_S2048x128_S128x512_S2048x512_1_0_0_1_n_n.rhsIdx j q 0).val = (q ⟨0, by decide⟩).val :=
  dot_S2048x128_S128x512_S2048x512_1_0_0_1_n_n.rhsIdx_val_of_single rfl j q

/-- and its column is `u`. -/
theorem rhsIdx_col (j : S2048x512.Idx) (q : dot_S2048x128_S128x512_S2048x512_1_0_0_1_n_n.contr.Idx) :
    (dot_S2048x128_S128x512_S2048x512_1_0_0_1_n_n.rhsIdx j q 1).val = (j 1).val := by
  unfold DotDims.rhsIdx
  rw [dif_neg (show ¬(1 : Fin S128x512.rank) ∈ dot_S2048x128_S128x512_S2048x512_1_0_0_1_n_n.rhsBatch by decide),
    dif_pos (show (1 : Fin S128x512.rank) ∈ dot_S2048x128_S128x512_S2048x512_1_0_0_1_n_n.rhsNonContracting by decide)]
  rfl

/-- The product of a `[2048, 128]` array by a `[128, 512]` array, accumulated into zero, read at `(h, u)`: the sum over
    the 128 shared coordinates of the products of row `h` of the one and column `u` of the other. -/
theorem matmul_tile_apply (A : FVec Ideal S2048x128 .bf16) (B : FVec Ideal S128x512 .bf16) (h : Fin 2048) (u : Fin 512) :
    matmul dot_S2048x128_S128x512_S2048x512_1_0_0_1_n_n none A B (constant S2048x512 .f32 0x00000000#32) (ix2 h u)
      = ∑ k : Fin 128, A (ix2 h k) * B (ix2 k u) := by
  simp only [matmul]
  rw [Ideal.matmul_constant_zero_apply,
    ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 h u)
      ((contrEquiv1 dot_S2048x128_S128x512_S2048x512_1_0_0_1_n_n 128 rfl rfl).symm k) = ix2 h k :=
    funext fun a => Fin.ext (by
      match a with
      | ⟨0, _⟩ => exact lhsIdx_row _ _
      | ⟨1, _⟩ => exact (lhsIdx_col _ _).trans hk)
  have er : dot_S2048x128_S128x512_S2048x512_1_0_0_1_n_n.rhsIdx (ix2 h u)
      ((contrEquiv1 dot_S2048x128_S128x512_S2048x512_1_0_0_1_n_n 128 rfl rfl).symm k) = ix2 k u :=
    funext fun a => Fin.ext (by
      match a with
      | ⟨0, _⟩ => exact (rhsIdx_row _ _).trans hk
      | ⟨1, _⟩ => exact rhsIdx_col _ _)
  rw [el, er]

/-! ## The cosine tile -/

/-- The tile the kernel's body computes, at `(h, u)`, is the cosine of hypothesis row `h` and row `u` of the text tile:
    the product's entry is the inner product of the two rows; the text norms, laid as a row and repeated down the
    hypothesis rows, read as the norm of text row `u`; the hypothesis norms, laid as a column and repeated along the
    text rows, read as the norm of hypothesis row `h`; the narrowing of the operands is the identity on ideal values. -/
theorem cos_tile0 (x0 : Vec Ideal S1x512x128 .f32) (x1 : Vec Ideal S1x2048x128 .f32) (h : Fin 2048) (u : Fin 512) :
    k0_pay6 (F := Ideal) x0 x1 (ix2 h u) = tileCos x0 x1 h u := by
  unfold k0_pay6
  simp only [divf_apply]
  unfold tileCos normOf
  refine congrArg₂ Ideal.div (congrArg₂ Ideal.div ?_ ?_) ?_
  · refine (matmul_tile_apply _ _ h u).trans (Finset.sum_congr rfl fun k _ => ?_)
    refine congrArg₂ (· * ·) ?_ ?_
    · exact shapeCast_1ab_ab_apply x1 _ h k
    · exact (transpose_ix2_apply _ _ k u).trans (shapeCast_1ab_ab_apply x0 _ u k)
  · refine (broadcastTo_1b_ab_apply _ _ h u).trans ((shapeCast_a_1a_apply _ _ 0 u).trans ?_)
    refine congrArg (fun s => Ideal.sqrt (max s eps)) ?_
    refine (rowSum_apply _ _ _ _ u).trans (Finset.sum_congr rfl fun k _ => ?_)
    exact congrArg₂ (· * ·) (shapeCast_1ab_ab_apply x0 _ u k) (shapeCast_1ab_ab_apply x0 _ u k)
  · refine (broadcastTo_a1_ab_apply _ _ h u).trans ((shapeCast_a_a1_apply _ _ h 0).trans ?_)
    refine congrArg (fun s => Ideal.sqrt (max s eps)) ?_
    refine (rowSum_apply _ _ _ _ h).trans (Finset.sum_congr rfl fun k _ => ?_)
    exact congrArg₂ (· * ·) (shapeCast_1ab_ab_apply x1 _ h k) (shapeCast_1ab_ab_apply x1 _ h k)

/-! ## The stores' payloads at a pooled index -/

/-- One step of the running maximum: the stored block at row `h` is the maximum of the block read before and the
    maximum, folded from -∞, of the tile's cosines of that row. -/
theorem max_step0 (x0 : Vec Ideal S1x512x128 .f32) (x1 : Vec Ideal S1x2048x128 .f32) (acc : Vec Ideal S1x2048x1 .f32)
    (h : Fin 2048) :
    k0_pay1 (F := Ideal) (k0_pay8 (F := Ideal) x0 x1 acc) (ix3 0 h 0)
      = max (acc (ix3 0 h 0)) ((Finset.univ : Finset (Fin 512)).fold max negInf fun u => tileCos x0 x1 h u) := by
  unfold k0_pay1 k0_pay8
  refine (shapeCast_ab_1ab_apply _ _ 0 h 0).trans ?_
  refine (maximumf_apply _ _ (ix2 h 0)).trans ?_
  refine congrArg₂ max (shapeCast_1ab_ab_apply acc _ h 0) ?_
  refine (shapeCast_a_a1_apply _ _ h 0).trans ((rowMax_apply _ _ _ _ h).trans ?_)
  exact congrArg (fun f => Finset.fold max negInf f (Finset.univ : Finset (Fin 512)))
    (funext fun u => cos_tile0 x0 x1 h u)

/-- One step of the running sum: the stored block at row `h` is the block read before plus the sum of the tile's
    cosines of that row. -/
theorem sum_step0 (x0 : Vec Ideal S1x512x128 .f32) (x1 : Vec Ideal S1x2048x128 .f32) (acc : Vec Ideal S1x2048x1 .f32)
    (h : Fin 2048) :
    k0_pay2 (F := Ideal) (k0_pay7 (F := Ideal) x0 x1) acc (ix3 0 h 0)
      = acc (ix3 0 h 0) + ∑ u : Fin 512, tileCos x0 x1 h u := by
  unfold k0_pay2 k0_pay7
  refine (shapeCast_ab_1ab_apply _ _ 0 h 0).trans ?_
  refine (addf_apply _ _ (ix2 h 0)).trans ?_
  refine congrArg₂ (· + ·) (shapeCast_1ab_ab_apply acc _ h 0) ?_
  refine (shapeCast_a_a1_apply _ _ h 0).trans ((rowSum_apply _ _ _ _ h).trans ?_)
  exact Finset.sum_congr rfl fun u _ => cos_tile0 x0 x1 h u

/-- The closing division: the stored block at row `h` is the block read before divided by the word of 2048. -/
theorem div_step0 (acc : Vec Ideal S1x2048x1 .f32) (h : Fin 2048) :
    k0_pay3 (F := Ideal) acc (ix3 0 h 0) = Ideal.div (acc (ix3 0 h 0)) count := by
  unfold k0_pay3
  refine (shapeCast_ab_1ab_apply _ _ 0 h 0).trans ?_
  refine (divf_apply _ _ (ix2 h 0)).trans ?_
  exact congrArg₂ Ideal.div (shapeCast_1ab_ab_apply acc _ h 0) rfl

/-- The running maximum starts from the word of -∞ in every row. -/
theorem init_max0 (h : Fin 2048) : k0_pay4 (F := Ideal) (ix3 0 h 0) = negInf := by
  unfold k0_pay4
  exact shapeCast_ab_1ab_apply _ _ 0 h 0

/-- The running sum starts from zero in every row. -/
theorem init_sum0 (h : Fin 2048) : k0_pay5 (F := Ideal) (ix3 0 h 0) = 0 := by
  unfold k0_pay5
  exact (shapeCast_ab_1ab_apply _ _ 0 h 0).trans Ideal.ofBits_zero_f32

/-! ## The second call's payloads

The second call's body is the first's, word for word, over the other pair of arrays: each of its payloads unfolds to the
same term, so each statement above holds of it by unfolding. -/

theorem cos_tile1 (x0 : Vec Ideal S1x512x128 .f32) (x1 : Vec Ideal S1x2048x128 .f32) (h : Fin 2048) (u : Fin 512) :
    k1_pay6 (F := Ideal) x0 x1 (ix2 h u) = tileCos x0 x1 h u := cos_tile0 x0 x1 h u

theorem max_step1 (x0 : Vec Ideal S1x512x128 .f32) (x1 : Vec Ideal S1x2048x128 .f32) (acc : Vec Ideal S1x2048x1 .f32)
    (h : Fin 2048) :
    k1_pay1 (F := Ideal) (k1_pay8 (F := Ideal) x0 x1 acc) (ix3 0 h 0)
      = max (acc (ix3 0 h 0)) ((Finset.univ : Finset (Fin 512)).fold max negInf fun u => tileCos x0 x1 h u) :=
  max_step0 x0 x1 acc h

theorem sum_step1 (x0 : Vec Ideal S1x512x128 .f32) (x1 : Vec Ideal S1x2048x128 .f32) (acc : Vec Ideal S1x2048x1 .f32)
    (h : Fin 2048) :
    k1_pay2 (F := Ideal) (k1_pay7 (F := Ideal) x0 x1) acc (ix3 0 h 0)
      = acc (ix3 0 h 0) + ∑ u : Fin 512, tileCos x0 x1 h u :=
  sum_step0 x0 x1 acc h

theorem div_step1 (acc : Vec Ideal S1x2048x1 .f32) (h : Fin 2048) :
    k1_pay3 (F := Ideal) acc (ix3 0 h 0) = Ideal.div (acc (ix3 0 h 0)) count := div_step0 acc h

theorem init_max1 (h : Fin 2048) : k1_pay4 (F := Ideal) (ix3 0 h 0) = negInf := init_max0 h

theorem init_sum1 (h : Fin 2048) : k1_pay5 (F := Ideal) (ix3 0 h 0) = 0 := init_sum0 h

end Cert.CosPool.Tile

end
-- ==== Proof.Region0.lean ====
/-
  Pallas call 0 of the kernel (the forward direction: the text array is argument 0, the hypothesis array argument 2), read as
  values at the ideal instance: whatever the call finds in its two input arrays, its two result arrays end holding the
  pooled maximum and the pooled mean of the cosines.

  The call's grid is 8 batches by 4 text tiles, 32 points in order; point t works on batch t / 4 and text tile t % 4.
  Its text window's block at t is rows 512·(t % 4) … of batch t / 4; the hypothesis window's block is the batch's whole
  [2048, 128] slab; each result window's block is the batch's [2048, 1] column, which stays in its buffer over the
  batch's four points and is written back after the fourth.  Over those four points the body keeps, per hypothesis row,
  a running maximum (restarted from -∞ at the first tile, each tile's row maximum taken in) and a running sum (restarted
  from zero, each tile's row sum added, the total divided by 2048 at the last tile).  So what is written back for row h
  is  max (max (max (max -∞ M₀) M₁) M₂) M₃  and  ((((0 + S₀) + S₁) + S₂) + S₃) / 2048  with Mₖ, Sₖ the maximum and the sum
  of the cosines of row h against the 512 text rows of tile k — the maximum and the mean over all 2048 text rows, by the
  specification's two tiling lemmas.  The blocks written back after the eight batches' last points tile each result
  array, which therefore ends holding the pooled function everywhere.
-/
import proofs.«130323_j14267881357504_1_alg».proof.Proof.Gen.KernelIdeal.Frame
import proofs.«130323_j14267881357504_1_alg».proof.Proof.Spec
import proofs.«130323_j14267881357504_1_alg».proof.Proof.Pieces0
import proofs.«130323_j14267881357504_1_alg».proof.Proof.TileValues
import Idealize.ShloMosaic.Lib.Pipeline.Value
import Idealize.ShloMosaic.Lib.ValueIdx

set_option maxRecDepth 16384

noncomputable section

namespace Cert.CosPool.Region0

open Cert.KernelIdeal Cert.KernelIdeal.Gen Cert.CosPool
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The call's text array and hypothesis array as it finds them. -/
abbrev text (c : Dev nD) : Arr.Idx → EReal := V c main_arg0
abbrev hypo (c : Dev nD) : Arr.Idx → EReal := V c main_arg2

/-- The printed index maps over the 32 grid points: point `t` is batch `t / 4`, text tile `t % 4`; the hypothesis block
    and both result blocks are the batch's. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The text tile at point `t`: rows `512·(t % 4) …` of batch `t / 4`. -/
theorem iblk_text (c : Dev nD) (t : Fin cfg0.N) (u : Fin 512) (d : Fin 128) (b : Fin 8) (r : Fin 2048)
    (hb : b.val = t.val / 4) (hr : r.val = 512 * (t.val % 4) + u.val) :
    (iblk0 V c 0 t : TextTile.Idx → EReal) (ix3 0 u d) = text V c (ix3 b r d) := by
  obtain ⟨e0, e1, e2, -⟩ := idx_facts t
  unfold iblk0
  rw [View.read_apply]
  show (V c main_arg0 : Arr.Idx → EReal) _ = _
  congr 1
  funext a
  apply Fin.ext
  match a with
  | ⟨0, _⟩ => show win0_0.index t (0 : Fin 3) * 1 + 1 * 0 = b.val; omega
  | ⟨1, _⟩ => show win0_0.index t (1 : Fin 3) * 512 + 1 * u.val = r.val; omega
  | ⟨2, _⟩ => show win0_0.index t (2 : Fin 3) * 128 + 1 * d.val = d.val; omega

/-- The hypothesis block at point `t`: all rows of batch `t / 4`. -/
theorem iblk_hypo (c : Dev nD) (t : Fin cfg0.N) (h : Fin 2048) (d : Fin 128) (b : Fin 8) (hb : b.val = t.val / 4) :
    (iblk0 V c 1 t : HypoBlock.Idx → EReal) (ix3 0 h d) = hypo V c (ix3 b h d) := by
  obtain ⟨-, -, -, e0, e1, e2, -⟩ := idx_facts t
  unfold iblk0
  rw [View.read_apply]
  show (V c main_arg2 : Arr.Idx → EReal) _ = _
  congr 1
  funext a
  apply Fin.ext
  match a with
  | ⟨0, _⟩ => show win0_1.index t (0 : Fin 3) * 1 + 1 * 0 = b.val; omega
  | ⟨1, _⟩ => show win0_1.index t (1 : Fin 3) * 2048 + 1 * h.val = h.val; omega
  | ⟨2, _⟩ => show win0_1.index t (2 : Fin 3) * 128 + 1 * d.val = d.val; omega

/-- So the tile's cosine at point `t` is the cosine of the batch's hypothesis row with text row `512·(t % 4) + u`. -/
theorem tileCos_blk (c : Dev nD) (t : Fin cfg0.N) (q : Fin 8) (k : Fin 4) (hq : q.val = t.val / 4) (hk : k.val = t.val % 4)
    (h : Fin 2048) (u : Fin 512) :
    tileCos (iblk0 V c 0 t) (iblk0 V c 1 t) h u = cosAt (text V c) (hypo V c) q h (tileRow k u) := by
  have hr : (tileRow k u).val = 512 * (t.val % 4) + u.val := by show 512 * k.val + u.val = _; rw [hk]
  unfold tileCos cosAt
  simp only [iblk_text V c t u _ q (tileRow k u) hq hr, iblk_hypo V c t h _ q hq]

/-- The maximum, and the sum, of one tile's cosines for a hypothesis row. -/
def tileMax (c : Dev nD) (q : Fin 8) (h : Fin 2048) (k : Fin 4) : EReal :=
  (Finset.univ : Finset (Fin 512)).fold max negInf fun u => cosAt (text V c) (hypo V c) q h (tileRow k u)
def tileSum (c : Dev nD) (q : Fin 8) (h : Fin 2048) (k : Fin 4) : EReal :=
  ∑ u : Fin 512, cosAt (text V c) (hypo V c) q h (tileRow k u)

theorem fold_blk (c : Dev nD) (t : Fin cfg0.N) (q : Fin 8) (k : Fin 4) (hq : q.val = t.val / 4) (hk : k.val = t.val % 4) (h : Fin 2048) :
    ((Finset.univ : Finset (Fin 512)).fold max negInf fun u => tileCos (iblk0 V c 0 t) (iblk0 V c 1 t) h u) = tileMax V c q h k :=
  congrArg (fun f => (Finset.univ : Finset (Fin 512)).fold max negInf f) (funext fun u => tileCos_blk V c t q k hq hk h u)
theorem sum_blk (c : Dev nD) (t : Fin cfg0.N) (q : Fin 8) (k : Fin 4) (hq : q.val = t.val / 4) (hk : k.val = t.val % 4) (h : Fin 2048) :
    (∑ u : Fin 512, tileCos (iblk0 V c 0 t) (iblk0 V c 1 t) h u) = tileSum V c q h k :=
  Finset.sum_congr rfl fun u _ => tileCos_blk V c t q k hq hk h u

/-! ## The two running blocks, point by point -/

theorem outsAt_congr (c : Dev nD) {n n' : ℕ} (e : n = n') (h : n < cfg0.N) (h' : n' < cfg0.N) :
    outsAt0 V c n h = outsAt0 V c n' h' := by subst e; rfl

/-- At the first tile of a batch both blocks restart: the maximum from -∞, the sum from zero. -/
theorem at_reset (c : Dev nD) (t : Fin cfg0.N) (h0 : t.val % 4 = 0) (q : Fin 8) (hq : q.val = t.val / 4) (h : Fin 2048) :
    (outsAt0 V c t.val t.isLt).1 (ix3 0 h 0) = max negInf (tileMax V c q h 0)
    ∧ (outsAt0 V c t.val t.isLt).2 (ix3 0 h 0) = 0 + tileSum V c q h 0 := by
  have h1 : ¬t.val % 4 = 3 := by omega
  rw [outsAt0_A V c t h0 h1]
  dsimp only
  rw [Cert.KernelIdeal.Pieces.out0_A_2_eq, Cert.KernelIdeal.Pieces.out0_A_3_eq, Tile.max_step0, Tile.sum_step0, Tile.init_max0, Tile.init_sum0,
    fold_blk V c t q 0 hq (by rw [h0]; rfl) h, sum_blk V c t q 0 hq (by rw [h0]; rfl) h]
  exact ⟨rfl, rfl⟩

/-- At a later tile the maximum block takes the tile's row maxima in. -/
theorem max_step (c : Dev nD) (t p : Fin cfg0.N) (e : t.val = p.val + 1) (h0 : ¬t.val % 4 = 0) (q : Fin 8) (k : Fin 4)
    (hq : q.val = t.val / 4) (hk : k.val = t.val % 4) (h : Fin 2048) :
    (outsAt0 V c t.val t.isLt).1 (ix3 0 h 0) = max ((outsAt0 V c p.val p.isLt).1 (ix3 0 h 0)) (tileMax V c q h k) := by
  have hp : outsAt0 V c (t.val - 1) (Nat.lt_of_le_of_lt (Nat.sub_le _ _) t.isLt) = outsAt0 V c p.val p.isLt :=
    outsAt_congr V c (by omega) _ _
  by_cases h1 : t.val % 4 = 3
  · rw [outsAt0_C V c t h0 h1]
    dsimp only
    rw [Cert.KernelIdeal.Pieces.out0_C_2_eq, Tile.max_step0, fold_blk V c t q k hq hk h, hp]
  · rw [outsAt0_B V c t h0 h1]
    dsimp only
    rw [Cert.KernelIdeal.Pieces.out0_B_2_eq, Tile.max_step0, fold_blk V c t q k hq hk h, hp]

/-- At a middle tile the sum block takes the tile's row sums in. -/
theorem sum_step (c : Dev nD) (t p : Fin cfg0.N) (e : t.val = p.val + 1) (h0 : ¬t.val % 4 = 0) (h1 : ¬t.val % 4 = 3) (q : Fin 8) (k : Fin 4)
    (hq : q.val = t.val / 4) (hk : k.val = t.val % 4) (h : Fin 2048) :
    (outsAt0 V c t.val t.isLt).2 (ix3 0 h 0) = (outsAt0 V c p.val p.isLt).2 (ix3 0 h 0) + tileSum V c q h k := by
  have hp : outsAt0 V c (t.val - 1) (Nat.lt_of_le_of_lt (Nat.sub_le _ _) t.isLt) = outsAt0 V c p.val p.isLt :=
    outsAt_congr V c (by omega) _ _
  rw [outsAt0_B V c t h0 h1]
  dsimp only
  rw [Cert.KernelIdeal.Pieces.out0_B_3_eq, Tile.sum_step0, sum_blk V c t q k hq hk h, hp]

/-- At the last tile it takes them in and is divided by the number of text rows. -/
theorem sum_last (c : Dev nD) (t p : Fin cfg0.N) (e : t.val = p.val + 1) (h1 : t.val % 4 = 3) (q : Fin 8) (k : Fin 4)
    (hq : q.val = t.val / 4) (hk : k.val = t.val % 4) (h : Fin 2048) :
    (outsAt0 V c t.val t.isLt).2 (ix3 0 h 0) = Ideal.div ((outsAt0 V c p.val p.isLt).2 (ix3 0 h 0) + tileSum V c q h k) count := by
  have h0 : ¬t.val % 4 = 0 := by omega
  have hp : outsAt0 V c (t.val - 1) (Nat.lt_of_le_of_lt (Nat.sub_le _ _) t.isLt) = outsAt0 V c p.val p.isLt :=
    outsAt_congr V c (by omega) _ _
  rw [outsAt0_C V c t h0 h1]
  dsimp only
  rw [Cert.KernelIdeal.Pieces.out0_C_3_eq, Tile.div_step0, Tile.sum_step0, sum_blk V c t q k hq hk h, hp]

/-- So after a batch's last tile the two blocks hold, for every hypothesis row, the maximum and the mean of its cosines
    over all 2048 text rows. -/
theorem at_last (c : Dev nD) (t : Fin cfg0.N) (h3 : t.val % 4 = 3) (q : Fin 8) (hq : q.val = t.val / 4) (h : Fin 2048) :
    (outsAt0 V c t.val t.isLt).1 (ix3 0 h 0) = (Finset.univ : Finset (Fin 2048)).fold max negInf (fun r => cosAt (text V c) (hypo V c) q h r)
    ∧ (outsAt0 V c t.val t.isLt).2 (ix3 0 h 0) = Ideal.div (∑ r : Fin 2048, cosAt (text V c) (hypo V c) q h r) count := by
  have hN : cfg0.N = 32 := N_0
  have ht : t.val < 32 := hN ▸ t.isLt
  let p2 : Fin cfg0.N := ⟨t.val - 1, lt_of_lt_of_eq (by omega : t.val - 1 < 32) hN.symm⟩
  let p1 : Fin cfg0.N := ⟨t.val - 2, lt_of_lt_of_eq (by omega : t.val - 2 < 32) hN.symm⟩
  let p0 : Fin cfg0.N := ⟨t.val - 3, lt_of_lt_of_eq (by omega : t.val - 3 < 32) hN.symm⟩
  have v2 : p2.val = t.val - 1 := rfl
  have v1 : p1.val = t.val - 2 := rfl
  have v0 : p0.val = t.val - 3 := rfl
  obtain ⟨m0, s0⟩ := at_reset V c p0 (by omega) q (by omega) h
  have m1 := max_step V c p1 p0 (by omega) (by omega) q 1 (by omega) (by rw [v1]; show 1 = _; omega) h
  have m2 := max_step V c p2 p1 (by omega) (by omega) q 2 (by omega) (by rw [v2]; show 2 = _; omega) h
  have m3 := max_step V c t p2 (by omega) (by omega) q 3 hq (by show 3 = _; omega) h
  have s1 := sum_step V c p1 p0 (by omega) (by omega) (by omega) q 1 (by omega) (by rw [v1]; show 1 = _; omega) h
  have s2 := sum_step V c p2 p1 (by omega) (by omega) (by omega) q 2 (by omega) (by rw [v2]; show 2 = _; omega) h
  have s3 := sum_last V c t p2 (by omega) h3 q 3 hq (by show 3 = _; omega) h
  constructor
  · rw [m3, m2, m1, m0]
    exact fold_max_tiles negInf fun r => cosAt (text V c) (hypo V c) q h r
  · rw [s3, s2, s1, s0]
    exact congrArg (fun x => Ideal.div x count) (sum_tiles fun r => cosAt (text V c) (hypo V c) q h r)

/-! ## From the blocks to the result arrays -/

/-- The specification read at an index whose batch and row are known. -/
theorem poolMax_at (te hy : Arr.Idx → EReal) (i : Pooled.Idx) (q : Fin 8) (h : Fin 2048) (e0 : (i 0).val = q.val) (e1 : (i 1).val = h.val) :
    poolMax te hy i = (Finset.univ : Finset (Fin 2048)).fold max negInf (fun r => cosAt te hy q h r) := by
  unfold poolMax
  rw [show (⟨(i 0).val, (i 0).isLt⟩ : Fin 8) = q from Fin.ext e0, show (⟨(i 1).val, (i 1).isLt⟩ : Fin 2048) = h from Fin.ext e1]
theorem poolMean_at (te hy : Arr.Idx → EReal) (i : Pooled.Idx) (q : Fin 8) (h : Fin 2048) (e0 : (i 0).val = q.val) (e1 : (i 1).val = h.val) :
    poolMean te hy i = Ideal.div (∑ r : Fin 2048, cosAt te hy q h r) count := by
  unfold poolMean
  rw [show (⟨(i 0).val, (i 0).isLt⟩ : Fin 8) = q from Fin.ext e0, show (⟨(i 1).val, (i 1).isLt⟩ : Fin 2048) = h from Fin.ext e1]

/-- What a batch's last point writes back into the maximum array is that batch's block of the pooled maximum. -/
theorem flushed_max (c : Dev nD) (t : Fin cfg0.N) (hf : (cfg0.win 2).flush t = true) :
    (dat0 V c).flushed 2 t = ((cfg0.win 2).blk t).view.read (Elt Ideal) (poolMax (text V c) (hypo V c)) := by
  have h3 : t.val % 4 = 3 := (flush0_2 t).mp hf
  have hN : cfg0.N = 32 := N_0
  have ht : t.val < 32 := hN ▸ t.isLt
  obtain ⟨-, -, -, -, -, -, e0, e1, e2, -⟩ := idx_facts t
  show (cfg0.win 2).cut (grid0.coords t) ((dat0 V c).after 2 t) = _
  rw [after0_2]
  funext y
  obtain ⟨z, h, z', rfl⟩ : ∃ (z : Fin 1) (h : Fin 2048) (z' : Fin 1), y = (ix3 z h z' : PooledBlock.Idx) := ⟨y 0, y 1, y 2, eq_ix3 y⟩
  obtain rfl : z = 0 := Subsingleton.elim _ _
  obtain rfl : z' = 0 := Subsingleton.elim _ _
  rw [View.read_apply]
  refine ((at_last V c t h3 ⟨t.val / 4, by omega⟩ rfl h).1).trans (poolMax_at _ _ _ ⟨t.val / 4, by omega⟩ h ?_ ?_).symm
  · show win0_2.index t (0 : Fin 3) * 1 + 1 * 0 = t.val / 4; omega
  · show win0_2.index t (1 : Fin 3) * 2048 + 1 * h.val = h.val; omega

/-- What it writes back into the mean array is that batch's block of the pooled mean. -/
theorem flushed_mean (c : Dev nD) (t : Fin cfg0.N) (hf : (cfg0.win 3).flush t = true) :
    (dat0 V c).flushed 3 t = ((cfg0.win 3).blk t).view.read (Elt Ideal) (poolMean (text V c) (hypo V c)) := by
  have h3 : t.val % 4 = 3 := (flush0_3 t).mp hf
  have hN : cfg0.N = 32 := N_0
  have ht : t.val < 32 := hN ▸ t.isLt
  obtain ⟨-, -, -, -, -, -, -, -, -, e0, e1, e2⟩ := idx_facts t
  show (cfg0.win 3).cut (grid0.coords t) ((dat0 V c).after 3 t) = _
  rw [after0_3]
  funext y
  obtain ⟨z, h, z', rfl⟩ : ∃ (z : Fin 1) (h : Fin 2048) (z' : Fin 1), y = (ix3 z h z' : PooledBlock.Idx) := ⟨y 0, y 1, y 2, eq_ix3 y⟩
  obtain rfl : z = 0 := Subsingleton.elim _ _
  obtain rfl : z' = 0 := Subsingleton.elim _ _
  rw [View.read_apply]
  refine ((at_last V c t h3 ⟨t.val / 4, by omega⟩ rfl h).2).trans (poolMean_at _ _ _ ⟨t.val / 4, by omega⟩ h ?_ ?_).symm
  · show win0_3.index t (0 : Fin 3) * 1 + 1 * 0 = t.val / 4; omega
  · show win0_3.index t (1 : Fin 3) * 2048 + 1 * h.val = h.val; omega

/-- Every index of a result array lies in the block its batch's last point writes back. -/
theorem cover2 (i : Pooled.Idx) : ∃ t : Fin cfg0.N, (cfg0.win 2).flush t = true ∧ i ∈ ((cfg0.win 2).blk t).view.set := by
  have hN : cfg0.N = 32 := N_0
  have hi0 : (i 0).val < 8 := (i 0).isLt
  have hi1 : (i 1).val < 2048 := (i 1).isLt
  have hi2 : (i 2).val < 1 := (i 2).isLt
  let t : Fin cfg0.N := ⟨4 * (i 0).val + 3, by rw [hN]; omega⟩
  have tv : t.val = 4 * (i 0).val + 3 := rfl
  obtain ⟨-, -, -, -, -, -, e0, e1, e2, -⟩ := idx_facts t
  refine ⟨t, (flush0_2 t).mpr (by omega), ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1 ≤ (i 2).val ∧ (i 2).val < win0_2.index t (2 : Fin 3) * 1 + 1; omega
theorem cover3 (i : Pooled.Idx) : ∃ t : Fin cfg0.N, (cfg0.win 3).flush t = true ∧ i ∈ ((cfg0.win 3).blk t).view.set := by
  have hN : cfg0.N = 32 := N_0
  have hi0 : (i 0).val < 8 := (i 0).isLt
  have hi1 : (i 1).val < 2048 := (i 1).isLt
  have hi2 : (i 2).val < 1 := (i 2).isLt
  let t : Fin cfg0.N := ⟨4 * (i 0).val + 3, by rw [hN]; omega⟩
  have tv : t.val = 4 * (i 0).val + 3 := rfl
  obtain ⟨-, -, -, -, -, -, -, -, -, e0, e1, e2⟩ := idx_facts t
  refine ⟨t, (flush0_3 t).mpr (by omega), ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 1 ≤ (i 2).val ∧ (i 2).val < win0_3.index t (2 : Fin 3) * 1 + 1; omega

/-- The maximum array after the call: the pooled maximum of the arrays the call found. -/
theorem final_max (c : Dev nD) : (dat0 V c).arrAt 2 cfg0.N = poolMax (text V c) (hypo V c) :=
  (dat0 V c).arrAt_eq_of_cover 2 (poolMax (text V c) (hypo V c)) (flushed_max V c) cover2
/-- The mean array after the call: the pooled mean. -/
theorem final_mean (c : Dev nD) : (dat0 V c).arrAt 3 cfg0.N = poolMean (text V c) (hypo V c) :=
  (dat0 V c).arrAt_eq_of_cover 3 (poolMean (text V c) (hypo V c)) (flushed_mean V c) cover3

end Cert.CosPool.Region0

end
-- ==== Proof.Pieces1.lean ====
/-
  What each control case of the body of pooling kernel 1 leaves in its two outputs' blocks, as the body's own
  functions of the blocks it loaded — at any float instance.

  The body holds one text tile `x0` (512 rows of 128 numbers), the batch's hypothesis block `x1` (2048 rows of 128), and
  two running blocks of one number per hypothesis row: output 2, the running MAXIMUM of the cosines over the text rows
  seen so far, and output 3, their running SUM. Its straight part takes the maximum of output 2 with the tile's row
  maxima and adds the tile's row sums to output 3. Two conditionals surround it. On the first tile of a batch (case A)
  both outputs are first reset, output 2 to the block of -∞ and output 3 to the block of zeros, so the straight part
  reads those back instead of earlier contents. On a middle tile (case B) nothing else happens. On the last tile
  (case C) the completed sum in output 3 is read back and replaced by its quotient by the number of text rows: the mean.

  Every load and store of the body goes through the whole block at zero offsets. So whatever is stored last into an
  output is what the output holds, and a load that follows a store reads exactly that store's value. The six
  statements below are these two facts applied to the stores each case makes, in the order it makes them.
-/
import proofs.«130323_j14267881357504_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The block offsets of every load and store of the body: all zero, however the zeros are spelt. -/
theorem hz1 : (![0, 0, 0] : Fin 3 → Nat) = fun _ => 0 := funext fun a => by fin_cases a <;> rfl

/-! ## Case A: the first text tile of a batch (the reset taken, the finish not)

The body first stores the block of -∞ into output 2 and the block of zeros into output 3; it then loads the text tile,
the hypothesis block and output 2 back, and stores into output 2 the maximum of what it read back with the tile's row
maxima; it loads output 3 back and stores into it the sum of what it read back with the tile's row sums. Each output is
therefore covered twice, the last store over the whole block, and each read-back reads the one earlier whole-block
store. -/

/-- Output 2 after case A: the running maximum started from the block of -∞. -/
theorem out1_A_2_eq (c : Dev nD) (i : grid1.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : cond1_0 i) (hc1 : ¬cond1_1 i)
    (x0 : Vec F S1x512x128 .f32) (x1 : Vec F S1x2048x128 .f32) :
    out1_A_2 c i a2 h2 a3 h3 a4 h4 a5 h5 hc0 hc1 x0 x1 = k1_pay1 (k1_pay8 x0 x1 (k1_pay4 (F := F))) := by
  unfold out1_A_2
  rw [View.read_writes_eq_canon _ _ _ (cover1_A_2 c i a2 h2 a3 h3 a4 h4 a5 h5 hc0 hc1 x0 x1)]
  unfold kernelRun1_A
  dsimp only
  sl_unfold_words
  rw [View.canon_cons_unit_zero (S := S1x2048x1) hz1, View.readCov_unit_zero (S := S1x2048x1) _ hz1]
  simp only [View.readAt_eq_ld, h2.read_unread, h3.read_unread, h4.read_unread, h5.read_unread,
    View.ld_unit_zero (S := S1x512x128) hz1, View.ld_unit_zero (S := S1x2048x128) hz1, View.ld_unit_zero (S := S1x2048x1) hz1]

/-- Output 3 after case A: the running sum started from the block of zeros. -/
theorem out1_A_3_eq (c : Dev nD) (i : grid1.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : cond1_0 i) (hc1 : ¬cond1_1 i)
    (x0 : Vec F S1x512x128 .f32) (x1 : Vec F S1x2048x128 .f32) :
    out1_A_3 c i a2 h2 a3 h3 a4 h4 a5 h5 hc0 hc1 x0 x1 = k1_pay2 (k1_pay7 x0 x1) (k1_pay5 (F := F)) := by
  unfold out1_A_3
  rw [View.read_writes_eq_canon _ _ _ (cover1_A_3 c i a2 h2 a3 h3 a4 h4 a5 h5 hc0 hc1 x0 x1)]
  unfold kernelRun1_A
  dsimp only
  sl_unfold_words
  rw [View.canon_cons_unit_zero (S := S1x2048x1) hz1, View.readCov_unit_zero (S := S1x2048x1) _ hz1]
  simp only [View.readAt_eq_ld, h2.read_unread, h3.read_unread, h4.read_unread, h5.read_unread,
    View.ld_unit_zero (S := S1x512x128) hz1, View.ld_unit_zero (S := S1x2048x128) hz1, View.ld_unit_zero (S := S1x2048x1) hz1]

/-! ## Case B: a middle text tile (neither the reset nor the finish taken)

No reset: the body loads the text tile, the hypothesis block and the running contents of output 2, and stores into
output 2 their maximum with the tile's row maxima; it loads the running contents of output 3 and stores into it their
sum with the tile's row sums. Each output is covered by that one whole-block store. -/

/-- Output 2 after case B: the maximum of its running contents with the tile's row maxima. -/
theorem out1_B_2_eq (c : Dev nD) (i : grid1.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond1_0 i) (hc1 : ¬cond1_1 i)
    (x0 : Vec F S1x512x128 .f32) (x1 : Vec F S1x2048x128 .f32) (xo2 xo3 : Vec F S1x2048x1 .f32) :
    out1_B_2 c i a2 h2 a3 h3 a4 h4 a5 h5 hc0 hc1 x0 x1 xo2 xo3 = k1_pay1 (k1_pay8 x0 x1 xo2) := by
  unfold out1_B_2
  rw [View.read_writes_eq_canon _ _ _ (cover1_B_2 c i a2 h2 a3 h3 a4 h4 a5 h5 hc0 hc1 x0 x1 xo2 xo3)]
  unfold kernelRun1_B
  dsimp only
  sl_unfold_words
  rw [View.canon_unit_zero hz1]
  simp only [View.readAt_eq_ld, h2.read_unread, h3.read_unread, h4.read_unread, h5.read_unread,
    View.ld_unit_zero (S := S1x512x128) hz1, View.ld_unit_zero (S := S1x2048x128) hz1, View.ld_unit_zero (S := S1x2048x1) hz1]

/-- Output 3 after case B: the sum of its running contents with the tile's row sums. -/
theorem out1_B_3_eq (c : Dev nD) (i : grid1.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond1_0 i) (hc1 : ¬cond1_1 i)
    (x0 : Vec F S1x512x128 .f32) (x1 : Vec F S1x2048x128 .f32) (xo2 xo3 : Vec F S1x2048x1 .f32) :
    out1_B_3 c i a2 h2 a3 h3 a4 h4 a5 h5 hc0 hc1 x0 x1 xo2 xo3 = k1_pay2 (k1_pay7 x0 x1) xo3 := by
  unfold out1_B_3
  rw [View.read_writes_eq_canon _ _ _ (cover1_B_3 c i a2 h2 a3 h3 a4 h4 a5 h5 hc0 hc1 x0 x1 xo2 xo3)]
  unfold kernelRun1_B
  dsimp only
  sl_unfold_words
  rw [View.canon_unit_zero hz1]
  simp only [View.readAt_eq_ld, h2.read_unread, h3.read_unread, h4.read_unread, h5.read_unread,
    View.ld_unit_zero (S := S1x512x128) hz1, View.ld_unit_zero (S := S1x2048x128) hz1, View.ld_unit_zero (S := S1x2048x1) hz1]

/-! ## Case C: the last text tile of a batch (the reset not taken, the finish taken)

As case B, and then the finish: the body loads back what it has just stored into output 3 (the completed sum) and
stores its quotient by the count of text rows over it. Output 2 is covered by its one store; output 3 twice, the
quotient last, whose argument reads the one earlier whole-block store. -/

/-- Output 2 after case C: as in case B, the finish does not touch it. -/
theorem out1_C_2_eq (c : Dev nD) (i : grid1.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond1_0 i) (hc1 : cond1_1 i)
    (x0 : Vec F S1x512x128 .f32) (x1 : Vec F S1x2048x128 .f32) (xo2 xo3 : Vec F S1x2048x1 .f32) :
    out1_C_2 c i a2 h2 a3 h3 a4 h4 a5 h5 hc0 hc1 x0 x1 xo2 xo3 = k1_pay1 (k1_pay8 x0 x1 xo2) := by
  unfold out1_C_2
  rw [View.read_writes_eq_canon _ _ _ (cover1_C_2 c i a2 h2 a3 h3 a4 h4 a5 h5 hc0 hc1 x0 x1 xo2 xo3)]
  unfold kernelRun1_C
  dsimp only
  sl_unfold_words
  rw [View.canon_unit_zero hz1]
  simp only [View.readAt_eq_ld, h2.read_unread, h3.read_unread, h4.read_unread, h5.read_unread,
    View.ld_unit_zero (S := S1x512x128) hz1, View.ld_unit_zero (S := S1x2048x128) hz1, View.ld_unit_zero (S := S1x2048x1) hz1]

/-- Output 3 after case C: the completed sum divided by the count of text rows. -/
theorem out1_C_3_eq (c : Dev nD) (i : grid1.Coords) (a2 : Memref sig .tc .vmem S1x512x128 .f32) (h2 : a2.IsWhole)
    (a3 : Memref sig .tc .vmem S1x2048x128 .f32) (h3 : a3.IsWhole) (a4 : Memref sig .tc .vmem S1x2048x1 .f32) (h4 : a4.IsWhole)
    (a5 : Memref sig .tc .vmem S1x2048x1 .f32) (h5 : a5.IsWhole) (hc0 : ¬cond1_0 i) (hc1 : cond1_1 i)
    (x0 : Vec F S1x512x128 .f32) (x1 : Vec F S1x2048x128 .f32) (xo2 xo3 : Vec F S1x2048x1 .f32) :
    out1_C_3 c i a2 h2 a3 h3 a4 h4 a5 h5 hc0 hc1 x0 x1 xo2 xo3 = k1_pay3 (k1_pay2 (k1_pay7 x0 x1) xo3) := by
  unfold out1_C_3
  rw [View.read_writes_eq_canon _ _ _ (cover1_C_3 c i a2 h2 a3 h3 a4 h4 a5 h5 hc0 hc1 x0 x1 xo2 xo3)]
  unfold kernelRun1_C
  dsimp only
  sl_unfold_words
  rw [View.canon_cons_unit_zero (S := S1x2048x1) hz1, View.readCov_unit_zero (S := S1x2048x1) _ hz1]
  simp only [View.readAt_eq_ld, h2.read_unread, h3.read_unread, h4.read_unread, h5.read_unread,
    View.ld_unit_zero (S := S1x512x128) hz1, View.ld_unit_zero (S := S1x2048x128) hz1, View.ld_unit_zero (S := S1x2048x1) hz1]

end Cert.KernelIdeal.Pieces

end
-- ==== Proof.Region1.lean ====
/-
  Pallas call 1 of the kernel (the backward direction: the text array is argument 1, the hypothesis array argument 3), read as
  values at the ideal instance: whatever the call finds in its two input arrays, its two result arrays end holding the
  pooled maximum and the pooled mean of the cosines.

  The call's grid is 8 batches by 4 text tiles, 32 points in order; point t works on batch t / 4 and text tile t % 4.
  Its text window's block at t is rows 512·(t % 4) … of batch t / 4; the hypothesis window's block is the batch's whole
  [2048, 128] slab; each result window's block is the batch's [2048, 1] column, which stays in its buffer over the
  batch's four points and is written back after the fourth.  Over those four points the body keeps, per hypothesis row,
  a running maximum (restarted from -∞ at the first tile, each tile's row maximum taken in) and a running sum (restarted
  from zero, each tile's row sum added, the total divided by 2048 at the last tile).  So what is written back for row h
  is  max (max (max (max -∞ M₀) M₁) M₂) M₃  and  ((((0 + S₀) + S₁) + S₂) + S₃) / 2048  with Mₖ, Sₖ the maximum and the sum
  of the cosines of row h against the 512 text rows of tile k — the maximum and the mean over all 2048 text rows, by the
  specification's two tiling lemmas.  The blocks written back after the eight batches' last points tile each result
  array, which therefore ends holding the pooled function everywhere.
-/
import proofs.«130323_j14267881357504_1_alg».proof.Proof.Gen.KernelIdeal.Frame
import proofs.«130323_j14267881357504_1_alg».proof.Proof.Spec
import proofs.«130323_j14267881357504_1_alg».proof.Proof.Pieces1
import proofs.«130323_j14267881357504_1_alg».proof.Proof.TileValues
import Idealize.ShloMosaic.Lib.Pipeline.Value
import Idealize.ShloMosaic.Lib.ValueIdx

set_option maxRecDepth 16384

noncomputable section

namespace Cert.CosPool.Region1

open Cert.KernelIdeal Cert.KernelIdeal.Gen Cert.CosPool
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The call's text array and hypothesis array as it finds them. -/
abbrev text (c : Dev nD) : Arr.Idx → EReal := V c main_arg1
abbrev hypo (c : Dev nD) : Arr.Idx → EReal := V c main_arg3

/-- The printed index maps over the 32 grid points: point `t` is batch `t / 4`, text tile `t % 4`; the hypothesis block
    and both result blocks are the batch's. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0 :=
  (by decide +kernel : ∀ t : Fin grid1.N, _)

/-- The text tile at point `t`: rows `512·(t % 4) …` of batch `t / 4`. -/
theorem iblk_text (c : Dev nD) (t : Fin cfg1.N) (u : Fin 512) (d : Fin 128) (b : Fin 8) (r : Fin 2048)
    (hb : b.val = t.val / 4) (hr : r.val = 512 * (t.val % 4) + u.val) :
    (iblk1 V c 0 t : TextTile.Idx → EReal) (ix3 0 u d) = text V c (ix3 b r d) := by
  obtain ⟨e0, e1, e2, -⟩ := idx_facts t
  unfold iblk1
  rw [View.read_apply]
  show (V c main_arg1 : Arr.Idx → EReal) _ = _
  congr 1
  funext a
  apply Fin.ext
  match a with
  | ⟨0, _⟩ => show win1_0.index t (0 : Fin 3) * 1 + 1 * 0 = b.val; omega
  | ⟨1, _⟩ => show win1_0.index t (1 : Fin 3) * 512 + 1 * u.val = r.val; omega
  | ⟨2, _⟩ => show win1_0.index t (2 : Fin 3) * 128 + 1 * d.val = d.val; omega

/-- The hypothesis block at point `t`: all rows of batch `t / 4`. -/
theorem iblk_hypo (c : Dev nD) (t : Fin cfg1.N) (h : Fin 2048) (d : Fin 128) (b : Fin 8) (hb : b.val = t.val / 4) :
    (iblk1 V c 1 t : HypoBlock.Idx → EReal) (ix3 0 h d) = hypo V c (ix3 b h d) := by
  obtain ⟨-, -, -, e0, e1, e2, -⟩ := idx_facts t
  unfold iblk1
  rw [View.read_apply]
  show (V c main_arg3 : Arr.Idx → EReal) _ = _
  congr 1
  funext a
  apply Fin.ext
  match a with
  | ⟨0, _⟩ => show win1_1.index t (0 : Fin 3) * 1 + 1 * 0 = b.val; omega
  | ⟨1, _⟩ => show win1_1.index t (1 : Fin 3) * 2048 + 1 * h.val = h.val; omega
  | ⟨2, _⟩ => show win1_1.index t (2 : Fin 3) * 128 + 1 * d.val = d.val; omega

/-- So the tile's cosine at point `t` is the cosine of the batch's hypothesis row with text row `512·(t % 4) + u`. -/
theorem tileCos_blk (c : Dev nD) (t : Fin cfg1.N) (q : Fin 8) (k : Fin 4) (hq : q.val = t.val / 4) (hk : k.val = t.val % 4)
    (h : Fin 2048) (u : Fin 512) :
    tileCos (iblk1 V c 0 t) (iblk1 V c 1 t) h u = cosAt (text V c) (hypo V c) q h (tileRow k u) := by
  have hr : (tileRow k u).val = 512 * (t.val % 4) + u.val := by show 512 * k.val + u.val = _; rw [hk]
  unfold tileCos cosAt
  simp only [iblk_text V c t u _ q (tileRow k u) hq hr, iblk_hypo V c t h _ q hq]

/-- The maximum, and the sum, of one tile's cosines for a hypothesis row. -/
def tileMax (c : Dev nD) (q : Fin 8) (h : Fin 2048) (k : Fin 4) : EReal :=
  (Finset.univ : Finset (Fin 512)).fold max negInf fun u => cosAt (text V c) (hypo V c) q h (tileRow k u)
def tileSum (c : Dev nD) (q : Fin 8) (h : Fin 2048) (k : Fin 4) : EReal :=
  ∑ u : Fin 512, cosAt (text V c) (hypo V c) q h (tileRow k u)

theorem fold_blk (c : Dev nD) (t : Fin cfg1.N) (q : Fin 8) (k : Fin 4) (hq : q.val = t.val / 4) (hk : k.val = t.val % 4) (h : Fin 2048) :
    ((Finset.univ : Finset (Fin 512)).fold max negInf fun u => tileCos (iblk1 V c 0 t) (iblk1 V c 1 t) h u) = tileMax V c q h k :=
  congrArg (fun f => (Finset.univ : Finset (Fin 512)).fold max negInf f) (funext fun u => tileCos_blk V c t q k hq hk h u)
theorem sum_blk (c : Dev nD) (t : Fin cfg1.N) (q : Fin 8) (k : Fin 4) (hq : q.val = t.val / 4) (hk : k.val = t.val % 4) (h : Fin 2048) :
    (∑ u : Fin 512, tileCos (iblk1 V c 0 t) (iblk1 V c 1 t) h u) = tileSum V c q h k :=
  Finset.sum_congr rfl fun u _ => tileCos_blk V c t q k hq hk h u

/-! ## The two running blocks, point by point -/

theorem outsAt_congr (c : Dev nD) {n n' : ℕ} (e : n = n') (h : n < cfg1.N) (h' : n' < cfg1.N) :
    outsAt1 V c n h = outsAt1 V c n' h' := by subst e; rfl

/-- At the first tile of a batch both blocks restart: the maximum from -∞, the sum from zero. -/
theorem at_reset (c : Dev nD) (t : Fin cfg1.N) (h0 : t.val % 4 = 0) (q : Fin 8) (hq : q.val = t.val / 4) (h : Fin 2048) :
    (outsAt1 V c t.val t.isLt).1 (ix3 0 h 0) = max negInf (tileMax V c q h 0)
    ∧ (outsAt1 V c t.val t.isLt).2 (ix3 0 h 0) = 0 + tileSum V c q h 0 := by
  have h1 : ¬t.val % 4 = 3 := by omega
  rw [outsAt1_A V c t h0 h1]
  dsimp only
  rw [Cert.KernelIdeal.Pieces.out1_A_2_eq, Cert.KernelIdeal.Pieces.out1_A_3_eq, Tile.max_step1, Tile.sum_step1, Tile.init_max1, Tile.init_sum1,
    fold_blk V c t q 0 hq (by rw [h0]; rfl) h, sum_blk V c t q 0 hq (by rw [h0]; rfl) h]
  exact ⟨rfl, rfl⟩

/-- At a later tile the maximum block takes the tile's row maxima in. -/
theorem max_step (c : Dev nD) (t p : Fin cfg1.N) (e : t.val = p.val + 1) (h0 : ¬t.val % 4 = 0) (q : Fin 8) (k : Fin 4)
    (hq : q.val = t.val / 4) (hk : k.val = t.val % 4) (h : Fin 2048) :
    (outsAt1 V c t.val t.isLt).1 (ix3 0 h 0) = max ((outsAt1 V c p.val p.isLt).1 (ix3 0 h 0)) (tileMax V c q h k) := by
  have hp : outsAt1 V c (t.val - 1) (Nat.lt_of_le_of_lt (Nat.sub_le _ _) t.isLt) = outsAt1 V c p.val p.isLt :=
    outsAt_congr V c (by omega) _ _
  by_cases h1 : t.val % 4 = 3
  · rw [outsAt1_C V c t h0 h1]
    dsimp only
    rw [Cert.KernelIdeal.Pieces.out1_C_2_eq, Tile.max_step1, fold_blk V c t q k hq hk h, hp]
  · rw [outsAt1_B V c t h0 h1]
    dsimp only
    rw [Cert.KernelIdeal.Pieces.out1_B_2_eq, Tile.max_step1, fold_blk V c t q k hq hk h, hp]

/-- At a middle tile the sum block takes the tile's row sums in. -/
theorem sum_step (c : Dev nD) (t p : Fin cfg1.N) (e : t.val = p.val + 1) (h0 : ¬t.val % 4 = 0) (h1 : ¬t.val % 4 = 3) (q : Fin 8) (k : Fin 4)
    (hq : q.val = t.val / 4) (hk : k.val = t.val % 4) (h : Fin 2048) :
    (outsAt1 V c t.val t.isLt).2 (ix3 0 h 0) = (outsAt1 V c p.val p.isLt).2 (ix3 0 h 0) + tileSum V c q h k := by
  have hp : outsAt1 V c (t.val - 1) (Nat.lt_of_le_of_lt (Nat.sub_le _ _) t.isLt) = outsAt1 V c p.val p.isLt :=
    outsAt_congr V c (by omega) _ _
  rw [outsAt1_B V c t h0 h1]
  dsimp only
  rw [Cert.KernelIdeal.Pieces.out1_B_3_eq, Tile.sum_step1, sum_blk V c t q k hq hk h, hp]

/-- At the last tile it takes them in and is divided by the number of text rows. -/
theorem sum_last (c : Dev nD) (t p : Fin cfg1.N) (e : t.val = p.val + 1) (h1 : t.val % 4 = 3) (q : Fin 8) (k : Fin 4)
    (hq : q.val = t.val / 4) (hk : k.val = t.val % 4) (h : Fin 2048) :
    (outsAt1 V c t.val t.isLt).2 (ix3 0 h 0) = Ideal.div ((outsAt1 V c p.val p.isLt).2 (ix3 0 h 0) + tileSum V c q h k) count := by
  have h0 : ¬t.val % 4 = 0 := by omega
  have hp : outsAt1 V c (t.val - 1) (Nat.lt_of_le_of_lt (Nat.sub_le _ _) t.isLt) = outsAt1 V c p.val p.isLt :=
    outsAt_congr V c (by omega) _ _
  rw [outsAt1_C V c t h0 h1]
  dsimp only
  rw [Cert.KernelIdeal.Pieces.out1_C_3_eq, Tile.div_step1, Tile.sum_step1, sum_blk V c t q k hq hk h, hp]

/-- So after a batch's last tile the two blocks hold, for every hypothesis row, the maximum and the mean of its cosines
    over all 2048 text rows. -/
theorem at_last (c : Dev nD) (t : Fin cfg1.N) (h3 : t.val % 4 = 3) (q : Fin 8) (hq : q.val = t.val / 4) (h : Fin 2048) :
    (outsAt1 V c t.val t.isLt).1 (ix3 0 h 0) = (Finset.univ : Finset (Fin 2048)).fold max negInf (fun r => cosAt (text V c) (hypo V c) q h r)
    ∧ (outsAt1 V c t.val t.isLt).2 (ix3 0 h 0) = Ideal.div (∑ r : Fin 2048, cosAt (text V c) (hypo V c) q h r) count := by
  have hN : cfg1.N = 32 := N_1
  have ht : t.val < 32 := hN ▸ t.isLt
  let p2 : Fin cfg1.N := ⟨t.val - 1, lt_of_lt_of_eq (by omega : t.val - 1 < 32) hN.symm⟩
  let p1 : Fin cfg1.N := ⟨t.val - 2, lt_of_lt_of_eq (by omega : t.val - 2 < 32) hN.symm⟩
  let p0 : Fin cfg1.N := ⟨t.val - 3, lt_of_lt_of_eq (by omega : t.val - 3 < 32) hN.symm⟩
  have v2 : p2.val = t.val - 1 := rfl
  have v1 : p1.val = t.val - 2 := rfl
  have v0 : p0.val = t.val - 3 := rfl
  obtain ⟨m0, s0⟩ := at_reset V c p0 (by omega) q (by omega) h
  have m1 := max_step V c p1 p0 (by omega) (by omega) q 1 (by omega) (by rw [v1]; show 1 = _; omega) h
  have m2 := max_step V c p2 p1 (by omega) (by omega) q 2 (by omega) (by rw [v2]; show 2 = _; omega) h
  have m3 := max_step V c t p2 (by omega) (by omega) q 3 hq (by show 3 = _; omega) h
  have s1 := sum_step V c p1 p0 (by omega) (by omega) (by omega) q 1 (by omega) (by rw [v1]; show 1 = _; omega) h
  have s2 := sum_step V c p2 p1 (by omega) (by omega) (by omega) q 2 (by omega) (by rw [v2]; show 2 = _; omega) h
  have s3 := sum_last V c t p2 (by omega) h3 q 3 hq (by show 3 = _; omega) h
  constructor
  · rw [m3, m2, m1, m0]
    exact fold_max_tiles negInf fun r => cosAt (text V c) (hypo V c) q h r
  · rw [s3, s2, s1, s0]
    exact congrArg (fun x => Ideal.div x count) (sum_tiles fun r => cosAt (text V c) (hypo V c) q h r)

/-! ## From the blocks to the result arrays -/

/-- The specification read at an index whose batch and row are known. -/
theorem poolMax_at (te hy : Arr.Idx → EReal) (i : Pooled.Idx) (q : Fin 8) (h : Fin 2048) (e0 : (i 0).val = q.val) (e1 : (i 1).val = h.val) :
    poolMax te hy i = (Finset.univ : Finset (Fin 2048)).fold max negInf (fun r => cosAt te hy q h r) := by
  unfold poolMax
  rw [show (⟨(i 0).val, (i 0).isLt⟩ : Fin 8) = q from Fin.ext e0, show (⟨(i 1).val, (i 1).isLt⟩ : Fin 2048) = h from Fin.ext e1]
theorem poolMean_at (te hy : Arr.Idx → EReal) (i : Pooled.Idx) (q : Fin 8) (h : Fin 2048) (e0 : (i 0).val = q.val) (e1 : (i 1).val = h.val) :
    poolMean te hy i = Ideal.div (∑ r : Fin 2048, cosAt te hy q h r) count := by
  unfold poolMean
  rw [show (⟨(i 0).val, (i 0).isLt⟩ : Fin 8) = q from Fin.ext e0, show (⟨(i 1).val, (i 1).isLt⟩ : Fin 2048) = h from Fin.ext e1]

/-- What a batch's last point writes back into the maximum array is that batch's block of the pooled maximum. -/
theorem flushed_max (c : Dev nD) (t : Fin cfg1.N) (hf : (cfg1.win 2).flush t = true) :
    (dat1 V c).flushed 2 t = ((cfg1.win 2).blk t).view.read (Elt Ideal) (poolMax (text V c) (hypo V c)) := by
  have h3 : t.val % 4 = 3 := (flush1_2 t).mp hf
  have hN : cfg1.N = 32 := N_1
  have ht : t.val < 32 := hN ▸ t.isLt
  obtain ⟨-, -, -, -, -, -, e0, e1, e2, -⟩ := idx_facts t
  show (cfg1.win 2).cut (grid1.coords t) ((dat1 V c).after 2 t) = _
  rw [after1_2]
  funext y
  obtain ⟨z, h, z', rfl⟩ : ∃ (z : Fin 1) (h : Fin 2048) (z' : Fin 1), y = (ix3 z h z' : PooledBlock.Idx) := ⟨y 0, y 1, y 2, eq_ix3 y⟩
  obtain rfl : z = 0 := Subsingleton.elim _ _
  obtain rfl : z' = 0 := Subsingleton.elim _ _
  rw [View.read_apply]
  refine ((at_last V c t h3 ⟨t.val / 4, by omega⟩ rfl h).1).trans (poolMax_at _ _ _ ⟨t.val / 4, by omega⟩ h ?_ ?_).symm
  · show win1_2.index t (0 : Fin 3) * 1 + 1 * 0 = t.val / 4; omega
  · show win1_2.index t (1 : Fin 3) * 2048 + 1 * h.val = h.val; omega

/-- What it writes back into the mean array is that batch's block of the pooled mean. -/
theorem flushed_mean (c : Dev nD) (t : Fin cfg1.N) (hf : (cfg1.win 3).flush t = true) :
    (dat1 V c).flushed 3 t = ((cfg1.win 3).blk t).view.read (Elt Ideal) (poolMean (text V c) (hypo V c)) := by
  have h3 : t.val % 4 = 3 := (flush1_3 t).mp hf
  have hN : cfg1.N = 32 := N_1
  have ht : t.val < 32 := hN ▸ t.isLt
  obtain ⟨-, -, -, -, -, -, -, -, -, e0, e1, e2⟩ := idx_facts t
  show (cfg1.win 3).cut (grid1.coords t) ((dat1 V c).after 3 t) = _
  rw [after1_3]
  funext y
  obtain ⟨z, h, z', rfl⟩ : ∃ (z : Fin 1) (h : Fin 2048) (z' : Fin 1), y = (ix3 z h z' : PooledBlock.Idx) := ⟨y 0, y 1, y 2, eq_ix3 y⟩
  obtain rfl : z = 0 := Subsingleton.elim _ _
  obtain rfl : z' = 0 := Subsingleton.elim _ _
  rw [View.read_apply]
  refine ((at_last V c t h3 ⟨t.val / 4, by omega⟩ rfl h).2).trans (poolMean_at _ _ _ ⟨t.val / 4, by omega⟩ h ?_ ?_).symm
  · show win1_3.index t (0 : Fin 3) * 1 + 1 * 0 = t.val / 4; omega
  · show win1_3.index t (1 : Fin 3) * 2048 + 1 * h.val = h.val; omega

/-- Every index of a result array lies in the block its batch's last point writes back. -/
theorem cover2 (i : Pooled.Idx) : ∃ t : Fin cfg1.N, (cfg1.win 2).flush t = true ∧ i ∈ ((cfg1.win 2).blk t).view.set := by
  have hN : cfg1.N = 32 := N_1
  have hi0 : (i 0).val < 8 := (i 0).isLt
  have hi1 : (i 1).val < 2048 := (i 1).isLt
  have hi2 : (i 2).val < 1 := (i 2).isLt
  let t : Fin cfg1.N := ⟨4 * (i 0).val + 3, by rw [hN]; omega⟩
  have tv : t.val = 4 * (i 0).val + 3 := rfl
  obtain ⟨-, -, -, -, -, -, e0, e1, e2, -⟩ := idx_facts t
  refine ⟨t, (flush1_2 t).mpr (by omega), ?_⟩
  show i ∈ ((View.whole main_v1_0).slice (win1_2.rect t)).set
  rw [View.set_slice_whole, Rect.mem_set_unit]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 2048 ≤ (i 1).val ∧ (i 1).val < win1_2.index t (1 : Fin 3) * 2048 + 2048; omega
  | ⟨2, _⟩ => show win1_2.index t (2 : Fin 3) * 1 ≤ (i 2).val ∧ (i 2).val < win1_2.index t (2 : Fin 3) * 1 + 1; omega
theorem cover3 (i : Pooled.Idx) : ∃ t : Fin cfg1.N, (cfg1.win 3).flush t = true ∧ i ∈ ((cfg1.win 3).blk t).view.set := by
  have hN : cfg1.N = 32 := N_1
  have hi0 : (i 0).val < 8 := (i 0).isLt
  have hi1 : (i 1).val < 2048 := (i 1).isLt
  have hi2 : (i 2).val < 1 := (i 2).isLt
  let t : Fin cfg1.N := ⟨4 * (i 0).val + 3, by rw [hN]; omega⟩
  have tv : t.val = 4 * (i 0).val + 3 := rfl
  obtain ⟨-, -, -, -, -, -, -, -, -, e0, e1, e2⟩ := idx_facts t
  refine ⟨t, (flush1_3 t).mpr (by omega), ?_⟩
  show i ∈ ((View.whole main_v1_1).slice (win1_3.rect t)).set
  rw [View.set_slice_whole, Rect.mem_set_unit]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 1 ≤ (i 2).val ∧ (i 2).val < win1_3.index t (2 : Fin 3) * 1 + 1; omega

/-- The maximum array after the call: the pooled maximum of the arrays the call found. -/
theorem final_max (c : Dev nD) : (dat1 V c).arrAt 2 cfg1.N = poolMax (text V c) (hypo V c) :=
  (dat1 V c).arrAt_eq_of_cover 2 (poolMax (text V c) (hypo V c)) (flushed_max V c) cover2
/-- The mean array after the call: the pooled mean. -/
theorem final_mean (c : Dev nD) : (dat1 V c).arrAt 3 cfg1.N = poolMean (text V c) (hypo V c) :=
  (dat1 V c).arrAt_eq_of_cover 3 (poolMean (text V c) (hypo V c)) (flushed_mean V c) cover3

end Cert.CosPool.Region1

end
-- ==== Proof.RefStages.lean ====
/-
  The reference program's stages, read at an index, are the specification's functions at the ideal values.

  For each direction the program forms the matrix of cosines of every hypothesis row against every text row of a batch:
  the dot product of the two rows, divided by the floored norm of the text row and then by the floored norm of the
  hypothesis row (the floored norm is the root of the larger of the sum of squares and ε; a sum starts from the word
  of zero, which is zero).  It then pools the matrix over the text rows twice: the maximum, folded from the word of
  -∞, and the sum from zero divided by the word of 2048; each pooled array gets a trailing axis of extent one.  The
  layout stages in between only move values: read at an index, each composed index map is a row (b, h, ·) or (b, t, ·)
  of an input array, or the entry (b, h, t) of the cosine matrix.
-/
import proofs.«130323_j14267881357504_1_alg».proof.Proof.Gen.ReferenceIdeal.Run
import proofs.«130323_j14267881357504_1_alg».proof.Proof.Gen.ReferenceIdeal.Read
import proofs.«130323_j14267881357504_1_alg».proof.Proof.Spec

noncomputable section

namespace Cert.CosPool.Ref

open Cert.ReferenceIdeal Cert.ReferenceIdeal.Gen Cert.ReferenceIdeal.Read Cert.CosPool Idealize.ShloMosaic
  Idealize.ShloMosaic.ValueIdx

/-! ### The forward direction: text array `x0`, hypothesis array `x2` -/

/-- The cosine matrix, stage 16, at (b, h, t).  Stage 0 is the dot product ∑ d, hypo[b,h,d] · text[b,t,d]; stages 1–5
    are the floored norm of the text row (squares, their sum from zero, the floor ε, the root), which stages 11–12
    spread along the hypothesis axis, and stage 13 divides by it; stages 6–10 are the floored norm of the hypothesis
    row, spread along the text axis by stages 14–15, and stage 16 divides by it. -/
theorem cos_apply (x0 x2 : (⟨S8x2048x128, .f32⟩ : BufTy).Contents (Elt Ideal)) (b : Fin 8) (h t : Fin 2048) :
    val_main_v16 (F := Ideal) x0 x2 (ix3 b h t) = cosAt x0 x2 b h t := by
  rw [val_main_v16_apply, val_main_v13_apply, val_main_v0_apply, val_main_v12_apply, val_main_v11_apply,
    val_main_v5_apply, val_main_v4_apply, val_main_v2_apply, val_main_v3_apply, val_main_cst_0_apply,
    val_main_cst_apply, val_main_v15_apply, val_main_v14_apply, val_main_v10_apply, val_main_v9_apply,
    val_main_v7_apply, val_main_v8_apply, val_main_cst_2_apply, val_main_cst_1_apply]
  -- the composed index maps of the layout stages are the rows (b, h, ·) and (b, t, ·)
  have eL : ∀ k : Fin 128, lidx_main_v0 (ix3 b h t) k = ix3 b h k := fun k =>
    funext fun a => Fin.ext (by match a with | ⟨0, _⟩ => rfl | ⟨1, _⟩ => rfl | ⟨2, _⟩ => rfl)
  have eR : ∀ k : Fin 128, ridx_main_v0 (ix3 b h t) k = ix3 b t k := fun k =>
    funext fun a => Fin.ext (by match a with | ⟨0, _⟩ => rfl | ⟨1, _⟩ => rfl | ⟨2, _⟩ => rfl)
  have eT : ∀ k : Fin 128, idx_main_v2 (idx_main_v11 (idx_main_v12 (ix3 b h t))) k = ix3 b t k := fun k =>
    funext fun a => Fin.ext (by match a with | ⟨0, _⟩ => rfl | ⟨1, _⟩ => rfl | ⟨2, _⟩ => rfl)
  have eH : ∀ k : Fin 128, idx_main_v7 (idx_main_v14 (idx_main_v15 (ix3 b h t))) k = ix3 b h k := fun k =>
    funext fun a => Fin.ext (by match a with | ⟨0, _⟩ => rfl | ⟨1, _⟩ => rfl | ⟨2, _⟩ => rfl)
  simp only [val_main_v1_apply, val_main_v6_apply, Ideal.hostDivf_def, Ideal.hostUnary_sqrt_def, Ideal.maximumf_def,
    Ideal.mulf_def, Ideal.ofBits_def, Ideal.ofBits_zero_f32, zero_add, eL, eR, eT, eH]
  rfl

/-- The pooled maximum.  Stage 34 folds the maximum of the cosine matrix over its text axis, from the word of -∞; stage
    35 only adds a trailing axis of extent one. -/
theorem fwd_max (x0 x2 : (⟨S8x2048x128, .f32⟩ : BufTy).Contents (Elt Ideal)) :
    val_main_v35 (F := Ideal) x0 x2 = poolMax x0 x2 := by
  funext i
  obtain ⟨b, h, z, rfl⟩ : ∃ (b : Fin 8) (h : Fin 2048) (z : Fin 1), i = ix3 b h z := ⟨i 0, i 1, i 2, eq_ix3 i⟩
  have hR : S8x2048x2048.Reduces [2] S8x2048 := by decide
  rw [val_main_v35_apply]
  refine (Host.reduce_eq_fold_single (s := S8x2048x2048) (t := S8x2048) (a := 2) (u := S_) (α := EReal)
    (FloatOps.maximumf (F := Ideal) (φ := .f32)) (val_main_v16 (F := Ideal) x0 x2) (val_main_cst_7 (F := Ideal))
    reducesTo_S8x2048x2048_S8x2048_d2 hR h_S_ (idx_main_v35 (ix3 b h z))).trans ?_
  -- the source index over (b, h) with text coordinate t is (b, h, t)
  have e : ∀ t : Fin 2048, hR.lift (idx_main_v35 (ix3 b h z)) t = ix3 b h t := fun t =>
    funext fun a => Fin.ext (by match a with | ⟨0, _⟩ => rfl | ⟨1, _⟩ => rfl | ⟨2, _⟩ => rfl)
  show Finset.fold max (Ideal.ofBits .f32 0xFF800000#32)
      (fun t : Fin 2048 => val_main_v16 (F := Ideal) x0 x2 (hR.lift (idx_main_v35 (ix3 b h z)) t)) Finset.univ
    = Finset.fold max (Ideal.ofBits .f32 0xFF800000#32) (fun t : Fin 2048 => cosAt x0 x2 b h t) Finset.univ
  refine Finset.fold_congr fun t _ => ?_
  rw [e t]
  exact cos_apply x0 x2 b h t

/-- The pooled mean.  Stage 36 sums the cosine matrix over its text axis, from zero; stage 37 adds a trailing axis of
    extent one; stage 38 is the word of 2048 at every index, and stage 39 divides by it. -/
theorem fwd_mean (x0 x2 : (⟨S8x2048x128, .f32⟩ : BufTy).Contents (Elt Ideal)) :
    val_main_v39 (F := Ideal) x0 x2 = poolMean x0 x2 := by
  funext i
  obtain ⟨b, h, z, rfl⟩ : ∃ (b : Fin 8) (h : Fin 2048) (z : Fin 1), i = ix3 b h z := ⟨i 0, i 1, i 2, eq_ix3 i⟩
  rw [val_main_v39_apply, val_main_v37_apply, val_main_v36_apply, val_main_cst_8_apply, val_main_v38_apply,
    val_main_cst_9_apply]
  -- the source index over (b, h) with text coordinate t is (b, h, t)
  have e : ∀ t : Fin 2048, idx_main_v36 (idx_main_v37 (ix3 b h z)) t = ix3 b h t := fun t =>
    funext fun a => Fin.ext (by match a with | ⟨0, _⟩ => rfl | ⟨1, _⟩ => rfl | ⟨2, _⟩ => rfl)
  simp only [Ideal.hostDivf_def, Ideal.ofBits_def, Ideal.ofBits_zero_f32, zero_add, e, cos_apply]
  rfl

/-! ### The backward direction: text array `x1`, hypothesis array `x3` -/

/-- The cosine matrix of the backward pair, stage 33, at (b, h, t): the same operations on the backward arrays.  Stage 17
    is the dot product; stages 18–22 the floored norm of the text row, spread by stages 28–29 and divided out at stage
    30; stages 23–27 the floored norm of the hypothesis row, spread by stages 31–32 and divided out at stage 33. -/
theorem cos_apply_bwd (x1 x3 : (⟨S8x2048x128, .f32⟩ : BufTy).Contents (Elt Ideal)) (b : Fin 8) (h t : Fin 2048) :
    val_main_v33 (F := Ideal) x1 x3 (ix3 b h t) = cosAt x1 x3 b h t := by
  rw [val_main_v33_apply, val_main_v30_apply, val_main_v17_apply, val_main_v29_apply, val_main_v28_apply,
    val_main_v22_apply, val_main_v21_apply, val_main_v19_apply, val_main_v20_apply, val_main_cst_4_apply,
    val_main_cst_3_apply, val_main_v32_apply, val_main_v31_apply, val_main_v27_apply, val_main_v26_apply,
    val_main_v24_apply, val_main_v25_apply, val_main_cst_6_apply, val_main_cst_5_apply]
  -- the composed index maps of the layout stages are the rows (b, h, ·) and (b, t, ·)
  have eL : ∀ k : Fin 128, lidx_main_v17 (ix3 b h t) k = ix3 b h k := fun k =>
    funext fun a => Fin.ext (by match a with | ⟨0, _⟩ => rfl | ⟨1, _⟩ => rfl | ⟨2, _⟩ => rfl)
  have eR : ∀ k : Fin 128, ridx_main_v17 (ix3 b h t) k = ix3 b t k := fun k =>
    funext fun a => Fin.ext (by match a with | ⟨0, _⟩ => rfl | ⟨1, _⟩ => rfl | ⟨2, _⟩ => rfl)
  have eT : ∀ k : Fin 128, idx_main_v19 (idx_main_v28 (idx_main_v29 (ix3 b h t))) k = ix3 b t k := fun k =>
    funext fun a => Fin.ext (by match a with | ⟨0, _⟩ => rfl | ⟨1, _⟩ => rfl | ⟨2, _⟩ => rfl)
  have eH : ∀ k : Fin 128, idx_main_v24 (idx_main_v31 (idx_main_v32 (ix3 b h t))) k = ix3 b h k := fun k =>
    funext fun a => Fin.ext (by match a with | ⟨0, _⟩ => rfl | ⟨1, _⟩ => rfl | ⟨2, _⟩ => rfl)
  simp only [val_main_v18_apply, val_main_v23_apply, Ideal.hostDivf_def, Ideal.hostUnary_sqrt_def, Ideal.maximumf_def,
    Ideal.mulf_def, Ideal.ofBits_def, Ideal.ofBits_zero_f32, zero_add, eL, eR, eT, eH]
  rfl

/-- The backward pooled maximum: stage 40 folds the maximum of stage 33 over the text axis from -∞, stage 41 adds the
    trailing axis. -/
theorem bwd_max (x1 x3 : (⟨S8x2048x128, .f32⟩ : BufTy).Contents (Elt Ideal)) :
    val_main_v41 (F := Ideal) x1 x3 = poolMax x1 x3 := by
  funext i
  obtain ⟨b, h, z, rfl⟩ : ∃ (b : Fin 8) (h : Fin 2048) (z : Fin 1), i = ix3 b h z := ⟨i 0, i 1, i 2, eq_ix3 i⟩
  have hR : S8x2048x2048.Reduces [2] S8x2048 := by decide
  rw [val_main_v41_apply]
  refine (Host.reduce_eq_fold_single (s := S8x2048x2048) (t := S8x2048) (a := 2) (u := S_) (α := EReal)
    (FloatOps.maximumf (F := Ideal) (φ := .f32)) (val_main_v33 (F := Ideal) x1 x3) (val_main_cst_10 (F := Ideal))
    reducesTo_S8x2048x2048_S8x2048_d2 hR h_S_ (idx_main_v41 (ix3 b h z))).trans ?_
  -- the source index over (b, h) with text coordinate t is (b, h, t)
  have e : ∀ t : Fin 2048, hR.lift (idx_main_v41 (ix3 b h z)) t = ix3 b h t := fun t =>
    funext fun a => Fin.ext (by match a with | ⟨0, _⟩ => rfl | ⟨1, _⟩ => rfl | ⟨2, _⟩ => rfl)
  show Finset.fold max (Ideal.ofBits .f32 0xFF800000#32)
      (fun t : Fin 2048 => val_main_v33 (F := Ideal) x1 x3 (hR.lift (idx_main_v41 (ix3 b h z)) t)) Finset.univ
    = Finset.fold max (Ideal.ofBits .f32 0xFF800000#32) (fun t : Fin 2048 => cosAt x1 x3 b h t) Finset.univ
  refine Finset.fold_congr fun t _ => ?_
  rw [e t]
  exact cos_apply_bwd x1 x3 b h t

/-- The backward pooled mean: stage 42 sums stage 33 over the text axis from zero, stage 43 adds the trailing axis, stage
    45 divides by the word of 2048 (stage 44). -/
theorem bwd_mean (x1 x3 : (⟨S8x2048x128, .f32⟩ : BufTy).Contents (Elt Ideal)) :
    val_main_v45 (F := Ideal) x1 x3 = poolMean x1 x3 := by
  funext i
  obtain ⟨b, h, z, rfl⟩ : ∃ (b : Fin 8) (h : Fin 2048) (z : Fin 1), i = ix3 b h z := ⟨i 0, i 1, i 2, eq_ix3 i⟩
  rw [val_main_v45_apply, val_main_v43_apply, val_main_v42_apply, val_main_cst_11_apply, val_main_v44_apply,
    val_main_cst_12_apply]
  -- the source index over (b, h) with text coordinate t is (b, h, t)
  have e : ∀ t : Fin 2048, idx_main_v42 (idx_main_v43 (ix3 b h z)) t = ix3 b h t := fun t =>
    funext fun a => Fin.ext (by match a with | ⟨0, _⟩ => rfl | ⟨1, _⟩ => rfl | ⟨2, _⟩ => rfl)
  simp only [Ideal.hostDivf_def, Ideal.ofBits_def, Ideal.ofBits_zero_f32, zero_add, e, cos_apply_bwd]
  rfl

end Cert.CosPool.Ref

end
-- ==== Proof.lean ====
/-
  The proof of `Cert.Claim`: the kernel — two pallas_calls, one per direction, each pooling the cosine similarity of every
  hypothesis row against all text rows of its batch by a running maximum and a running sum over four text tiles — against
  the reference, which forms each direction's whole [8, 2048, 2048] cosine matrix and reduces it.

  At the ideal values both compute, for each direction, batch b and hypothesis row h, the maximum over the 2048 text rows
  t of  cos b h t = ((∑ d, hypo[b,h,d] · text[b,t,d]) / ‖text[b,t]‖) / ‖hypo[b,h]‖  folded from -∞, and the sum of the same
  over t divided by 2048 (Proof/Spec.lean).  The kernel's side: what each control case of the body stores (Proof/Pieces0,
  Pieces1), those stores' values at an index (Proof/TileValues), their accumulation over a batch's four grid points and
  the write-back that tiles each result array (Proof/Region0, Region1), and the program's run with its four results named
  (Proof/KernelRun).  The reference's side: its run, and its stages read at an index (Proof/RefStages).  The only law
  that joins the two sides is that a maximum, or a sum, may be taken tile by tile: associativity and commutativity of max
  and + on the extended reals, so the precondition (finite inputs) is not used by the value claim.  The three frames are
  the generated frame certificates and the reference's run; the idealization rewrote nothing, so `preserves` is `True`.
-/
import proofs.«130323_j14267881357504_1_alg».proof.Defs
import proofs.«130323_j14267881357504_1_alg».proof.Proof.Gen.Kernel
import proofs.«130323_j14267881357504_1_alg».proof.Proof.Gen.Kernel.Frame
import proofs.«130323_j14267881357504_1_alg».proof.Proof.Gen.KernelIdeal
import proofs.«130323_j14267881357504_1_alg».proof.Proof.Gen.KernelIdeal.Frame
import proofs.«130323_j14267881357504_1_alg».proof.Proof.Gen.ReferenceIdeal
import proofs.«130323_j14267881357504_1_alg».proof.Proof.Gen.ReferenceIdeal.Run
import proofs.«130323_j14267881357504_1_alg».proof.Proof.Gen.ReferenceIdeal.Read
import proofs.«130323_j14267881357504_1_alg».proof.Proof.Gen.Pre_finite_inputs
import proofs.«130323_j14267881357504_1_alg».proof.Proof.Spec
import proofs.«130323_j14267881357504_1_alg».proof.Proof.KernelRun
import proofs.«130323_j14267881357504_1_alg».proof.Proof.Region0
import proofs.«130323_j14267881357504_1_alg».proof.Proof.Region1
import proofs.«130323_j14267881357504_1_alg».proof.Proof.RefStages
import Idealize.ShloMosaic.Adequacy
import Idealize.ShloMosaic.Init

noncomputable section

namespace Cert.Proof

open Idealize.ShloMosaic Idealize.SL.Sem Cert.CosPool

/-- The kernel as printed runs and leaves its arguments alone: the generated frame certificate. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is host operations only: its run, with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

/-- Both programs end with the pooled maximum and the pooled mean of each direction's cosines: the kernel's four result
    arrays by the two calls' value theorems (the second call finds its inputs as launched), the reference's four results
    by its stages; the arguments agree, so the four functions are the same. -/
theorem algebraic : Cert.algebraic_KernelIdeal_ReferenceIdeal := by
  intro m ρ m' ρ' _ hagree
  refine ⟨fun c => poolMax (m ((c.tc : Thread _ Cert.KernelIdeal.τ).loc Cert.KernelIdeal.main_arg0)) (m ((c.tc : Thread _ Cert.KernelIdeal.τ).loc Cert.KernelIdeal.main_arg2)),
    fun c => poolMean (m ((c.tc : Thread _ Cert.KernelIdeal.τ).loc Cert.KernelIdeal.main_arg0)) (m ((c.tc : Thread _ Cert.KernelIdeal.τ).loc Cert.KernelIdeal.main_arg2)),
    fun c => poolMax (m ((c.tc : Thread _ Cert.KernelIdeal.τ).loc Cert.KernelIdeal.main_arg1)) (m ((c.tc : Thread _ Cert.KernelIdeal.τ).loc Cert.KernelIdeal.main_arg3)),
    fun c => poolMean (m ((c.tc : Thread _ Cert.KernelIdeal.τ).loc Cert.KernelIdeal.main_arg1)) (m ((c.tc : Thread _ Cert.KernelIdeal.τ).loc Cert.KernelIdeal.main_arg3)),
    ?_, ?_⟩
  · refine (θ_run Cert.KernelIdeal.defs _ _).mono (fun r h c => ?_) (Cert.KernelIdeal.Named.run (F := Ideal) m ρ)
    obtain ⟨h0, h1, h2, h3, hargs⟩ := h c
    refine ⟨h0.trans (Cert.CosPool.Region0.final_max (Cert.KernelIdeal.Gen.V0 m ρ) c),
      h1.trans (Cert.CosPool.Region0.final_mean (Cert.KernelIdeal.Gen.V0 m ρ) c),
      h2.trans ((Cert.CosPool.Region1.final_max (Cert.KernelIdeal.Gen.V1 m ρ) c).trans ?_),
      h3.trans ((Cert.CosPool.Region1.final_mean (Cert.KernelIdeal.Gen.V1 m ρ) c).trans ?_), hargs⟩
    · show poolMax (Cert.KernelIdeal.Gen.V1 m ρ c Cert.KernelIdeal.main_arg1) (Cert.KernelIdeal.Gen.V1 m ρ c Cert.KernelIdeal.main_arg3) = _
      rw [Cert.KernelIdeal.Named.V1_main_arg1, Cert.KernelIdeal.Named.V1_main_arg3]
    · show poolMean (Cert.KernelIdeal.Gen.V1 m ρ c Cert.KernelIdeal.main_arg1) (Cert.KernelIdeal.Gen.V1 m ρ c Cert.KernelIdeal.main_arg3) = _
      rw [Cert.KernelIdeal.Named.V1_main_arg1, Cert.KernelIdeal.Named.V1_main_arg3]
  · refine (θ_run Cert.ReferenceIdeal.defs _ _).mono (fun r h c => ?_) (Cert.ReferenceIdeal.Value.run (F := Ideal) m' ρ')
    obtain ⟨h0, h1, h2, h3, hargs⟩ := h c
    obtain ⟨a0, a1, a2, a3⟩ := hagree c
    refine ⟨h0.trans ?_, h1.trans ?_, h2.trans ?_, h3.trans ?_, hargs⟩
    · rw [Cert.ReferenceIdeal.Read.val_main_v35_eq, Cert.CosPool.Ref.fwd_max, a0, a2]
    · rw [Cert.ReferenceIdeal.Read.val_main_v39_eq, Cert.CosPool.Ref.fwd_mean, a0, a2]
    · rw [Cert.ReferenceIdeal.Read.val_main_v41_eq, Cert.CosPool.Ref.bwd_max, a1, a3]
    · rw [Cert.ReferenceIdeal.Read.val_main_v45_eq, Cert.CosPool.Ref.bwd_mean, a1, a3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
